-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel
  bcast_S_S8000000x3 : S_.BroadcastsInDim S8000000x3 (![] : Fin 0 → Fin S8000000x3.rank)
  reducesTo_S8000000x3_S_d0_1 : S8000000x3.ReducesTo [0, 1] S_
  reducesTo_S8000000x4_S8000000_d1 : S8000000x4.ReducesTo [1] S8000000
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S8000000x4 .f32) (main_arg1 : FVec F S8000000x3 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x3 .f32 := Host.absf main_arg1
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  let main_v9 : FVec F S8000000x4 .f32 := mulf main_arg0 main_arg0
  let main_cst_2 : FVec F S_ .f32 := constant S_ .f32 0x00000000#32
  let main_v10 : FVec F S8000000 .f32 := (fun x v => Host.reduceAdd x v reducesTo_S8000000x4_S8000000_d1 h_S_) main_v9 main_cst_2
  let main_cst_3 : FVec F S_ .f32 := constant S_ .f32 0x00000000#32
  let main_v11 : FVec F S8000000 .f32 := broadcastInDim S8000000 ![] bcast_S_S8000000 main_cst_3
  let main_v12 : IVec S8000000 1 := cmpf .ogt main_v10 main_v11
  let main_c_4 : IVec S_ 1 := constantI S_ 1 1#1
  let main_v13 : IVec S_ 1 := (fun x v => Host.reduce IntOp.andi x v reducesTo_S8000000_S_d0 h_S_) main_v12 main_c_4
  let main_v14 : IVec S_ 1 := andi main_v8 main_v13
  main_v14
-- ==== Kernel.lean ====
abbrev S8000000x4 : Shape := ⟨2, ![8000000, 4]⟩
abbrev S8000000x3 : Shape := ⟨2, ![8000000, 3]⟩
abbrev S4x8000000 : Shape := ⟨2, ![4, 8000000]⟩
abbrev S3x8000000 : Shape := ⟨2, ![3, 8000000]⟩
abbrev S9x8000000 : Shape := ⟨2, ![9, 8000000]⟩
abbrev S8000000x9 : Shape := ⟨2, ![8000000, 9]⟩
abbrev S8000000x3x3 : Shape := ⟨3, ![8000000, 3, 3]⟩
abbrev S4x64000 : Shape := ⟨2, ![4, 64000]⟩
abbrev S3x64000 : Shape := ⟨2, ![3, 64000]⟩
abbrev S9x64000 : Shape := ⟨2, ![9, 64000]⟩
abbrev S1x64000 : Shape := ⟨2, ![1, 64000]⟩
abbrev S64000 : Shape := ⟨1, ![64000]⟩

abbrev nBuf : Space → Nat
  | .hbm => 7
  | .vmem => 6
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S4x8000000, .f32⟩
  | .hbm, ⟨3, _⟩ => ⟨S3x8000000, .f32⟩
  | .hbm, ⟨4, _⟩ => ⟨S9x8000000, .f32⟩
  | .hbm, ⟨5, _⟩ => ⟨S8000000x9, .f32⟩
  | .hbm, ⟨6, _⟩ => ⟨S8000000x3x3, .f32⟩
  | .local _ .vmem, ⟨0, _⟩ => ⟨S4x64000, .f32⟩
  | .local _ .vmem, ⟨1, _⟩ => ⟨S4x64000, .f32⟩
  | .local _ .vmem, ⟨2, _⟩ => ⟨S3x64000, .f32⟩
  | .local _ .vmem, ⟨3, _⟩ => ⟨S3x64000, .f32⟩
  | .local _ .vmem, ⟨4, _⟩ => ⟨S9x64000, .f32⟩
  | .local _ .vmem, ⟨5, _⟩ => ⟨S9x64000, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8000000x4_S4x8000000_1_0 : S8000000x4.Transposes [1, 0] S4x8000000
  transposes_S8000000x3_S3x8000000_1_0 : S8000000x3.Transposes [1, 0] S3x8000000
  transposes_S9x8000000_S8000000x9_1_0 : S9x8000000.Transposes [1, 0] S8000000x9
  shapeCasts_S8000000x9_S8000000x3x3 : S8000000x9.ShapeCasts S8000000x3x3
  inb_S4x64000_S4x64000_0_0 : ∀ a, (![0, 0] : Fin 2 → Nat) a + S4x64000.size a ≤ S4x64000.size a
  h_S4x64000 : 0 < S4x64000.numel
  shapeCasts_S4x64000_S4x64000 : S4x64000.ShapeCasts S4x64000
  inb_S3x64000_S3x64000_0_0 : ∀ a, (![0, 0] : Fin 2 → Nat) a + S3x64000.size a ≤ S3x64000.size a
  h_S3x64000 : 0 < S3x64000.numel
  shapeCasts_S3x64000_S3x64000 : S3x64000.ShapeCasts S3x64000
  slices_S4x64000_o0_0_S1x64000 : S4x64000.Slices ![0, 0] S1x64000
  shapeCasts_S1x64000_S64000 : S1x64000.ShapeCasts S64000
  slices_S4x64000_o1_0_S1x64000 : S4x64000.Slices ![1, 0] S1x64000
  slices_S4x64000_o2_0_S1x64000 : S4x64000.Slices ![2, 0] S1x64000
  slices_S4x64000_o3_0_S1x64000 : S4x64000.Slices ![3, 0] S1x64000
  slices_S3x64000_o0_0_S1x64000 : S3x64000.Slices ![0, 0] S1x64000
  slices_S3x64000_o1_0_S1x64000 : S3x64000.Slices ![1, 0] S1x64000
  slices_S3x64000_o2_0_S1x64000 : S3x64000.Slices ![2, 0] S1x64000
  shapeCasts_S64000_S1x64000 : S64000.ShapeCasts S1x64000
  concatenates_S1x64000_S1x64000_S1x64000_S1x64000_S1x64000_S1x64000_S1x64000_S1x64000_S1x64000_S9x64000_d0 : Shape.Concatenates [S1x64000, S1x64000, S1x64000, S1x64000, S1x64000, S1x64000, S1x64000, S1x64000, S1x64000] S9x64000 0
  inb_S9x64000_S9x64000_0_0 : ∀ a, (![0, 0] : Fin 2 → Nat) a + S9x64000.size a ≤ S9x64000.size a
  h_S9x64000 : 0 < S9x64000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64000.size a ≤ S4x8000000.size a
  hwx0_0 : ∀ i : grid0.Coords, EltTy.bits .f32 = 32 ∨ (Rect.block (s := S4x8000000) S4x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x64000.size a ≤ S3x8000000.size a
  hwx0_1 : ∀ i : grid0.Coords, EltTy.bits .f32 = 32 ∨ (Rect.block (s := S3x8000000) S3x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x64000.size a ≤ S9x8000000.size a
  hwx0_2 : ∀ i : grid0.Coords, EltTy.bits .f32 = 32 ∨ (Rect.block (s := S9x8000000) S9x64000.size (cc0_transform_2 i) (hinb0_2 i)).WholeWords (EltTy.packing .f32)

variable [Facts₀]

abbrev win0_0 : Pipeline.Window sig grid0 :=
  Pipeline.Window.ofSpec (Memref.whole main_call0_v0) S4x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S3x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S9x64000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩
abbrev S8000000x1 : Shape := ⟨2, ![8000000, 1]⟩
abbrev S8000000x1x3 : Shape := ⟨3, ![8000000, 1, 3]⟩
abbrev S8000000x3x3 : Shape := ⟨3, ![8000000, 3, 3]⟩

abbrev nBuf : Space → Nat
  | .hbm => 100
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x4, .f32⟩
  | .hbm, ⟨3, _⟩ => ⟨S_, .f32⟩
  | .hbm, ⟨4, _⟩ => ⟨S8000000, .f32⟩
  | .hbm, ⟨5, _⟩ => ⟨S8000000x1, .f32⟩
  | .hbm, ⟨6, _⟩ => ⟨S8000000x1, .f32⟩
  | .hbm, ⟨7, _⟩ => ⟨S8000000x4, .f32⟩
  | .hbm, ⟨8, _⟩ => ⟨S8000000x4, .f32⟩
  | .hbm, ⟨9, _⟩ => ⟨S8000000x1, .f32⟩
  | .hbm, ⟨10, _⟩ => ⟨S8000000, .f32⟩
  | .hbm, ⟨11, _⟩ => ⟨S8000000x1, .f32⟩
  | .hbm, ⟨12, _⟩ => ⟨S8000000, .f32⟩
  | .hbm, ⟨13, _⟩ => ⟨S8000000x1, .f32⟩
  | .hbm, ⟨14, _⟩ => ⟨S8000000, .f32⟩
  | .hbm, ⟨15, _⟩ => ⟨S8000000x1, .f32⟩
  | .hbm, ⟨16, _⟩ => ⟨S8000000, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S_, .f32⟩
  | .hbm, ⟨21, _⟩ => ⟨S8000000, .f32⟩
  | .hbm, ⟨22, _⟩ => ⟨S8000000, .f32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000x1, .f32⟩
  | .hbm, ⟨39, _⟩ => ⟨S8000000x1, .f32⟩
  | .hbm, ⟨40, _⟩ => ⟨S8000000x1, .f32⟩
  | .hbm, ⟨41, _⟩ => ⟨S8000000x3, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S_, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S_, .f32⟩
  | .hbm, ⟨52, _⟩ => ⟨S8000000, .f32⟩
  | .hbm, ⟨53, _⟩ => ⟨S8000000, .f32⟩
  | .hbm, ⟨54, _⟩ => ⟨S_, .f32⟩
  | .hbm, ⟨55, _⟩ => ⟨S8000000, .f32⟩
  | .hbm, ⟨56, _⟩ => ⟨S8000000, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S_, .f32⟩
  | .hbm, ⟨61, _⟩ => ⟨S8000000, .f32⟩
  | .hbm, ⟨62, _⟩ => ⟨S8000000, .f32⟩
  | .hbm, ⟨63, _⟩ => ⟨S8000000x1, .f32⟩
  | .hbm, ⟨64, _⟩ => ⟨S8000000x1, .f32⟩
  | .hbm, ⟨65, _⟩ => ⟨S8000000x1, .f32⟩
  | .hbm, ⟨66, _⟩ => ⟨S8000000x3, .f32⟩
  | .hbm, ⟨67, _⟩ => ⟨S8000000, .f32⟩
  | .hbm, ⟨68, _⟩ => ⟨S8000000, .f32⟩
  | .hbm, ⟨69, _⟩ => ⟨S8000000, .f32⟩
  | .hbm, ⟨70, _⟩ => ⟨S_, .f32⟩
  | .hbm, ⟨71, _⟩ => ⟨S8000000, .f32⟩
  | .hbm, ⟨72, _⟩ => ⟨S8000000, .f32⟩
  | .hbm, ⟨73, _⟩ => ⟨S8000000, .f32⟩
  | .hbm, ⟨74, _⟩ => ⟨S8000000, .f32⟩
  | .hbm, ⟨75, _⟩ => ⟨S8000000, .f32⟩
  | .hbm, ⟨76, _⟩ => ⟨S_, .f32⟩
  | .hbm, ⟨77, _⟩ => ⟨S8000000, .f32⟩
  | .hbm, ⟨78, _⟩ => ⟨S8000000, .f32⟩
  | .hbm, ⟨79, _⟩ => ⟨S8000000, .f32⟩
  | .hbm, ⟨80, _⟩ => ⟨S8000000, .f32⟩
  | .hbm, ⟨81, _⟩ => ⟨S8000000, .f32⟩
  | .hbm, ⟨82, _⟩ => ⟨S_, .f32⟩
  | .hbm, ⟨83, _⟩ => ⟨S8000000, .f32⟩
  | .hbm, ⟨84, _⟩ => ⟨S8000000, .f32⟩
  | .hbm, ⟨85, _⟩ => ⟨S_, .f32⟩
  | .hbm, ⟨86, _⟩ => ⟨S8000000, .f32⟩
  | .hbm, ⟨87, _⟩ => ⟨S8000000, .f32⟩
  | .hbm, ⟨88, _⟩ => ⟨S8000000x1, .f32⟩
  | .hbm, ⟨89, _⟩ => ⟨S8000000x1, .f32⟩
  | .hbm, ⟨90, _⟩ => ⟨S8000000x1, .f32⟩
  | .hbm, ⟨91, _⟩ => ⟨S8000000x3, .f32⟩
  | .hbm, ⟨92, _⟩ => ⟨S8000000x1x3, .f32⟩
  | .hbm, ⟨93, _⟩ => ⟨S8000000x1x3, .f32⟩
  | .hbm, ⟨94, _⟩ => ⟨S8000000x1x3, .f32⟩
  | .hbm, ⟨95, _⟩ => ⟨S8000000x3x3, .f32⟩
  | .hbm, ⟨96, _⟩ => ⟨S8000000x1x3, .f32⟩
  | .hbm, ⟨97, _⟩ => ⟨S8000000x3x3, .f32⟩
  | .hbm, ⟨98, _⟩ => ⟨S8000000x3x3, .f32⟩
  | .hbm, ⟨99, _⟩ => ⟨S8000000x3x3, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x3_d1 : Shape.Concatenates [S8000000x1, S8000000x1, S8000000x1] S8000000x3 1
  bcast_S8000000x3_S8000000x1x3_0_2 : S8000000x3.BroadcastsInDim S8000000x1x3 (![0, 2] : Fin 2 → Fin S8000000x1x3.rank)
  concatenates_S8000000x1x3_S8000000x1x3_S8000000x1x3_S8000000x3x3_d1 : Shape.Concatenates [S8000000x1x3, S8000000x1x3, S8000000x1x3] S8000000x3x3 1
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.Spec.lean ====
/-
  The mathematics both programs compute, one quaternion at a time.

  A row of the first input is a quaternion (w, x, y, z), a row of the second a scale (sx, sy, sz); the result row is the
  3x3 matrix C = (R S)(R S)^T, where S = diag(sx, sy, sz) and R is the rotation matrix of the NORMALISED quaternion.
  The two programs normalise differently.  One divides every component by the norm N = sqrt(w² + x² + y² + z²) first and
  builds R from the unit quaternion (`qR` of the four quotients).  The other never takes a square root: a product of two
  normalised components is the product of the raw components over w² + x² + y² + z², so it scales every quadratic form of the
  raw components by 2 / (w² + x² + y² + z²) (`kR`).  It also stores the symmetric matrix from its upper triangle
  (`Krow`: entries (1,0), (2,0), (2,1) are the stored (0,1), (0,2), (1,2)).
  For real components with w² + x² + y² + z² > 0 the two agree (`Cov.Krow_eq_Rrow`, in Algebra.lean); at the zero
  quaternion they do not (one is a quotient 0/0), which is why the claim carries the hypothesis that no quaternion is zero.
-/
import Idealize.ShloMosaic.PureOps.Ideal
import Idealize.ShloMosaic.Lib.ValueIdx

noncomputable section

namespace Cert.Cov

open Idealize.ShloMosaic

/-- The constants 0, 1 and 2 as both programs spell them. -/
def zero : EReal := Ideal.ofBits .f32 0x00000000#32
def one : EReal := Ideal.ofBits .f32 0x3F800000#32
def two : EReal := Ideal.ofBits .f32 0x40000000#32

/-- w² + x² + y² + z², summed left to right. -/
def kS (w x y z : EReal) : EReal := w * w + x * x + y * y + z * z

/-- 2 / (w² + x² + y² + z²). -/
def kT (w x y z : EReal) : EReal := two * Ideal.div one (kS w x y z)

/-- The rotation matrix from the RAW quaternion: every quadratic form scaled by `kT`. -/
def kR (w x y z : EReal) : Fin 3 → Fin 3 → EReal
  | ⟨0, _⟩, ⟨0, _⟩ => one - kT w x y z * (y * y + z * z)
  | ⟨0, _⟩, ⟨1, _⟩ => kT w x y z * (x * y - w * z)
  | ⟨0, _⟩, ⟨2, _⟩ => kT w x y z * (x * z + w * y)
  | ⟨1, _⟩, ⟨0, _⟩ => kT w x y z * (x * y + w * z)
  | ⟨1, _⟩, ⟨1, _⟩ => one - kT w x y z * (x * x + z * z)
  | ⟨1, _⟩, ⟨2, _⟩ => kT w x y z * (y * z - w * x)
  | ⟨2, _⟩, ⟨0, _⟩ => kT w x y z * (x * z - w * y)
  | ⟨2, _⟩, ⟨1, _⟩ => kT w x y z * (y * z + w * x)
  | ⟨2, _⟩, ⟨2, _⟩ => one - kT w x y z * (x * x + y * y)

/-- The rotation matrix of a UNIT quaternion (w, x, y, z). -/
def qR (w x y z : EReal) : Fin 3 → Fin 3 → EReal
  | ⟨0, _⟩, ⟨0, _⟩ => one - two * (y * y + z * z)
  | ⟨0, _⟩, ⟨1, _⟩ => two * (x * y - w * z)
  | ⟨0, _⟩, ⟨2, _⟩ => two * (x * z + w * y)
  | ⟨1, _⟩, ⟨0, _⟩ => two * (x * y + w * z)
  | ⟨1, _⟩, ⟨1, _⟩ => one - two * (x * x + z * z)
  | ⟨1, _⟩, ⟨2, _⟩ => two * (y * z - w * x)
  | ⟨2, _⟩, ⟨0, _⟩ => two * (x * z - w * y)
  | ⟨2, _⟩, ⟨1, _⟩ => two * (y * z + w * x)
  | ⟨2, _⟩, ⟨2, _⟩ => one - two * (x * x + y * y)

/-- Entry (i, k) of (R S)(R S)^T for S = diag(sx, sy, sz): the sum over the three columns, left to right. -/
def covOf (R : Fin 3 → Fin 3 → EReal) (sx sy sz : EReal) (i k : Fin 3) : EReal :=
  (R i 0 * sx) * (R k 0 * sx) + (R i 1 * sy) * (R k 1 * sy) + (R i 2 * sz) * (R k 2 * sz)

/-- The norm sqrt(0 + (w² + x² + y² + z²)). -/
def rN (w x y z : EReal) : EReal := Ideal.sqrt (zero + (w * w + x * x + y * y + z * z))

/-- Entry (i, k) of the result row, normalising FIRST: the unit quaternion's rotation matrix, scaled, times its transpose. -/
def Rrow (w x y z sx sy sz : EReal) (i k : Fin 3) : EReal :=
  covOf (qR (Ideal.div w (rN w x y z)) (Ideal.div x (rN w x y z)) (Ideal.div y (rN w x y z)) (Ideal.div z (rN w x y z)))
    sx sy sz i k

/-- The nine stored entries, in row-major order of the 3x3 result, from the upper triangle of the raw-quaternion form. -/
def Krow (w x y z sx sy sz : EReal) : Fin 9 → EReal
  | ⟨0, _⟩ => covOf (kR w x y z) sx sy sz 0 0
  | ⟨1, _⟩ => covOf (kR w x y z) sx sy sz 0 1
  | ⟨2, _⟩ => covOf (kR w x y z) sx sy sz 0 2
  | ⟨3, _⟩ => covOf (kR w x y z) sx sy sz 0 1
  | ⟨4, _⟩ => covOf (kR w x y z) sx sy sz 1 1
  | ⟨5, _⟩ => covOf (kR w x y z) sx sy sz 1 2
  | ⟨6, _⟩ => covOf (kR w x y z) sx sy sz 0 2
  | ⟨7, _⟩ => covOf (kR w x y z) sx sy sz 1 2
  | ⟨8, _⟩ => covOf (kR w x y z) sx sy sz 2 2

/-- Entry (i, k) of a 3x3 matrix sits at position 3 i + k of its row-major flattening. -/
def r9 (i k : Fin 3) : Fin 9 := ⟨3 * i.val + k.val, by have := i.isLt; have := k.isLt; omega⟩

/-- The whole result as the stored form computes it: row n of the two inputs gives the nine entries of result row n. -/
def Kres (a0 : (⟨2, ![8000000, 4]⟩ : Shape).Idx → EReal) (a1 : (⟨2, ![8000000, 3]⟩ : Shape).Idx → EReal) :
    (⟨3, ![8000000, 3, 3]⟩ : Shape).Idx → EReal := fun j =>
  Krow (a0 (ValueIdx.ix2 (⟨(j 0).val, (j 0).isLt⟩ : Fin 8000000) (0 : Fin 4)))
       (a0 (ValueIdx.ix2 (⟨(j 0).val, (j 0).isLt⟩ : Fin 8000000) (1 : Fin 4)))
       (a0 (ValueIdx.ix2 (⟨(j 0).val, (j 0).isLt⟩ : Fin 8000000) (2 : Fin 4)))
       (a0 (ValueIdx.ix2 (⟨(j 0).val, (j 0).isLt⟩ : Fin 8000000) (3 : Fin 4)))
       (a1 (ValueIdx.ix2 (⟨(j 0).val, (j 0).isLt⟩ : Fin 8000000) (0 : Fin 3)))
       (a1 (ValueIdx.ix2 (⟨(j 0).val, (j 0).isLt⟩ : Fin 8000000) (1 : Fin 3)))
       (a1 (ValueIdx.ix2 (⟨(j 0).val, (j 0).isLt⟩ : Fin 8000000) (2 : Fin 3)))
       (r9 ⟨(j 1).val, (j 1).isLt⟩ ⟨(j 2).val, (j 2).isLt⟩)

end Cert.Cov

end
-- ==== Proof.Algebra.lean ====
/-
  The algebra that joins the two normalisations.

  For a real quaternion (w, x, y, z) with s = w² + x² + y² + z² > 0 put p = 1 / √s.  Normalising first replaces every
  component a by a · p, and the unit quaternion's rotation matrix scales every quadratic form by 2; never taking the root
  scales every quadratic form of the raw components by 2 · (1 / s).  Both are the same real matrix "Rmat w x y z t" (the
  identity minus / plus t times a quadratic form) at t = 2 · (p · p) = 2 · (1 / s), because
      Rmat (w p) (x p) (y p) (z p) 2 = Rmat w x y z (2 · (p · p))
  entry by entry, and p · p = 1 / s since √s · √s = s.  The product (R S)(R S)^T of equal matrices is equal, and the stored
  lower triangle is the upper one because that product is symmetric.
-/
import proofs.«160028_j36670430773888_2_alg».proof.Proof.Spec

noncomputable section

namespace Cert.Cov.Alg

open Idealize.ShloMosaic

/-! ### The three constants -/

theorem zero_eq : zero = 0 := by
  simp [zero, Ideal.ofBits, Ideal.ieee]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

/-! ### The common real matrix -/

/-- The identity plus "t" times the quadratic forms of a rotation matrix: at a unit quaternion and t = 2 the rotation matrix. -/
def Rmat (w x y z t : ℝ) : Fin 3 → Fin 3 → ℝ
  | ⟨0, _⟩, ⟨0, _⟩ => 1 - t * (y * y + z * z)
  | ⟨0, _⟩, ⟨1, _⟩ => t * (x * y - w * z)
  | ⟨0, _⟩, ⟨2, _⟩ => t * (x * z + w * y)
  | ⟨1, _⟩, ⟨0, _⟩ => t * (x * y + w * z)
  | ⟨1, _⟩, ⟨1, _⟩ => 1 - t * (x * x + z * z)
  | ⟨1, _⟩, ⟨2, _⟩ => t * (y * z - w * x)
  | ⟨2, _⟩, ⟨0, _⟩ => t * (x * z - w * y)
  | ⟨2, _⟩, ⟨1, _⟩ => t * (y * z + w * x)
  | ⟨2, _⟩, ⟨2, _⟩ => 1 - t * (x * x + y * y)

/-- Scaling the quaternion by p is scaling the quadratic forms by p · p. -/
theorem Rmat_scale (w x y z p : ℝ) : ∀ i j : Fin 3,
    Rmat (w * p) (x * p) (y * p) (z * p) 2 i j = Rmat w x y z (2 * (p * p)) i j
  | ⟨0, _⟩, ⟨0, _⟩ => by show 1 - 2 * (y * p * (y * p) + z * p * (z * p)) = 1 - 2 * (p * p) * (y * y + z * z); ring
  | ⟨0, _⟩, ⟨1, _⟩ => by show 2 * (x * p * (y * p) - w * p * (z * p)) = 2 * (p * p) * (x * y - w * z); ring
  | ⟨0, _⟩, ⟨2, _⟩ => by show 2 * (x * p * (z * p) + w * p * (y * p)) = 2 * (p * p) * (x * z + w * y); ring
  | ⟨1, _⟩, ⟨0, _⟩ => by show 2 * (x * p * (y * p) + w * p * (z * p)) = 2 * (p * p) * (x * y + w * z); ring
  | ⟨1, _⟩, ⟨1, _⟩ => by show 1 - 2 * (x * p * (x * p) + z * p * (z * p)) = 1 - 2 * (p * p) * (x * x + z * z); ring
  | ⟨1, _⟩, ⟨2, _⟩ => by show 2 * (y * p * (z * p) - w * p * (x * p)) = 2 * (p * p) * (y * z - w * x); ring
  | ⟨2, _⟩, ⟨0, _⟩ => by show 2 * (x * p * (z * p) - w * p * (y * p)) = 2 * (p * p) * (x * z - w * y); ring
  | ⟨2, _⟩, ⟨1, _⟩ => by show 2 * (y * p * (z * p) + w * p * (x * p)) = 2 * (p * p) * (y * z + w * x); ring
  | ⟨2, _⟩, ⟨2, _⟩ => by show 1 - 2 * (x * p * (x * p) + y * p * (y * p)) = 1 - 2 * (p * p) * (x * x + y * y); ring

/-! ### Both rotation matrices are that real matrix -/

/-- The unit-quaternion form at real components is the real matrix at t = 2. -/
theorem qR_coe (w x y z : ℝ) : ∀ i j : Fin 3,
    qR (w : EReal) (x : EReal) (y : EReal) (z : EReal) i j = ((Rmat w x y z 2 i j : ℝ) : EReal)
  | ⟨0, _⟩, ⟨0, _⟩ => by
      show one - two * ((y : EReal) * y + z * z) = ((1 - 2 * (y * y + z * z) : ℝ) : EReal)
      rw [one_eq, two_eq]; norm_cast
  | ⟨0, _⟩, ⟨1, _⟩ => by
      show two * ((x : EReal) * y - w * z) = ((2 * (x * y - w * z) : ℝ) : EReal)
      rw [two_eq]; norm_cast
  | ⟨0, _⟩, ⟨2, _⟩ => by
      show two * ((x : EReal) * z + w * y) = ((2 * (x * z + w * y) : ℝ) : EReal)
      rw [two_eq]; norm_cast
  | ⟨1, _⟩, ⟨0, _⟩ => by
      show two * ((x : EReal) * y + w * z) = ((2 * (x * y + w * z) : ℝ) : EReal)
      rw [two_eq]; norm_cast
  | ⟨1, _⟩, ⟨1, _⟩ => by
      show one - two * ((x : EReal) * x + z * z) = ((1 - 2 * (x * x + z * z) : ℝ) : EReal)
      rw [one_eq, two_eq]; norm_cast
  | ⟨1, _⟩, ⟨2, _⟩ => by
      show two * ((y : EReal) * z - w * x) = ((2 * (y * z - w * x) : ℝ) : EReal)
      rw [two_eq]; norm_cast
  | ⟨2, _⟩, ⟨0, _⟩ => by
      show two * ((x : EReal) * z - w * y) = ((2 * (x * z - w * y) : ℝ) : EReal)
      rw [two_eq]; norm_cast
  | ⟨2, _⟩, ⟨1, _⟩ => by
      show two * ((y : EReal) * z + w * x) = ((2 * (y * z + w * x) : ℝ) : EReal)
      rw [two_eq]; norm_cast
  | ⟨2, _⟩, ⟨2, _⟩ => by
      show one - two * ((x : EReal) * x + y * y) = ((1 - 2 * (x * x + y * y) : ℝ) : EReal)
      rw [one_eq, two_eq]; norm_cast

/-- The raw-quaternion form at real components, once its scale factor is a real t, is the real matrix at t. -/
theorem kR_coe (w x y z t : ℝ) (ht : kT (w : EReal) (x : EReal) (y : EReal) (z : EReal) = (t : EReal)) : ∀ i j : Fin 3,
    kR (w : EReal) (x : EReal) (y : EReal) (z : EReal) i j = ((Rmat w x y z t i j : ℝ) : EReal)
  | ⟨0, _⟩, ⟨0, _⟩ => by
      show one - kT (w : EReal) x y z * ((y : EReal) * y + z * z) = ((1 - t * (y * y + z * z) : ℝ) : EReal)
      rw [one_eq, ht]; norm_cast
  | ⟨0, _⟩, ⟨1, _⟩ => by
      show kT (w : EReal) x y z * ((x : EReal) * y - w * z) = ((t * (x * y - w * z) : ℝ) : EReal)
      rw [ht]; norm_cast
  | ⟨0, _⟩, ⟨2, _⟩ => by
      show kT (w : EReal) x y z * ((x : EReal) * z + w * y) = ((t * (x * z + w * y) : ℝ) : EReal)
      rw [ht]; norm_cast
  | ⟨1, _⟩, ⟨0, _⟩ => by
      show kT (w : EReal) x y z * ((x : EReal) * y + w * z) = ((t * (x * y + w * z) : ℝ) : EReal)
      rw [ht]; norm_cast
  | ⟨1, _⟩, ⟨1, _⟩ => by
      show one - kT (w : EReal) x y z * ((x : EReal) * x + z * z) = ((1 - t * (x * x + z * z) : ℝ) : EReal)
      rw [one_eq, ht]; norm_cast
  | ⟨1, _⟩, ⟨2, _⟩ => by
      show kT (w : EReal) x y z * ((y : EReal) * z - w * x) = ((t * (y * z - w * x) : ℝ) : EReal)
      rw [ht]; norm_cast
  | ⟨2, _⟩, ⟨0, _⟩ => by
      show kT (w : EReal) x y z * ((x : EReal) * z - w * y) = ((t * (x * z - w * y) : ℝ) : EReal)
      rw [ht]; norm_cast
  | ⟨2, _⟩, ⟨1, _⟩ => by
      show kT (w : EReal) x y z * ((y : EReal) * z + w * x) = ((t * (y * z + w * x) : ℝ) : EReal)
      rw [ht]; norm_cast
  | ⟨2, _⟩, ⟨2, _⟩ => by
      show one - kT (w : EReal) x y z * ((x : EReal) * x + y * y) = ((1 - t * (x * x + y * y) : ℝ) : EReal)
      rw [one_eq, ht]; norm_cast

/-! ### The norm, the quotients and the scale factor at real components -/

/-- The sum of squares of real components is the real sum of squares. -/
theorem sumsq_coe (w x y z : ℝ) :
    (w : EReal) * w + (x : EReal) * x + (y : EReal) * y + (z : EReal) * z = ((w * w + x * x + y * y + z * z : ℝ) : EReal) := by
  norm_cast

/-- The norm of a real quaternion with nonnegative sum of squares s is √s. -/
theorem rN_coe (w x y z : ℝ) (hs : 0 < w * w + x * x + y * y + z * z) :
    rN (w : EReal) (x : EReal) (y : EReal) (z : EReal) = ((Real.sqrt (w * w + x * x + y * y + z * z) : ℝ) : EReal) := by
  unfold rN
  rw [zero_eq, zero_add, sumsq_coe, Ideal.sqrt_coe, if_neg (not_lt.mpr hs.le)]

/-- A component over the norm is the component times p = 1 / √s. -/
theorem div_rN_coe (w x y z a : ℝ) (hs : 0 < w * w + x * x + y * y + z * z) :
    Ideal.div (a : EReal) (rN (w : EReal) (x : EReal) (y : EReal) (z : EReal))
      = ((a * (1 / Real.sqrt (w * w + x * x + y * y + z * z)) : ℝ) : EReal) := by
  rw [rN_coe w x y z hs, Ideal.div_coe (Real.sqrt_pos.mpr hs).ne', ← EReal.coe_mul]

/-- The scale factor 2 / s at real components is 2 · (p · p). -/
theorem kT_coe (w x y z : ℝ) (hs : 0 < w * w + x * x + y * y + z * z) :
    kT (w : EReal) (x : EReal) (y : EReal) (z : EReal)
      = ((2 * ((1 / Real.sqrt (w * w + x * x + y * y + z * z)) * (1 / Real.sqrt (w * w + x * x + y * y + z * z))) : ℝ) : EReal) := by
  have hpp : (1 / Real.sqrt (w * w + x * x + y * y + z * z)) * (1 / Real.sqrt (w * w + x * x + y * y + z * z))
      = 1 / (w * w + x * x + y * y + z * z) := by
    rw [div_mul_div_comm, one_mul, Real.mul_self_sqrt hs.le]
  unfold kT kS
  rw [sumsq_coe, Ideal.div_coe hs.ne', one_eq, two_eq, ← EReal.coe_mul, ← EReal.coe_mul, hpp, one_mul]

/-! ### The product (R S)(R S)^T -/

/-- It is symmetric. -/
theorem covOf_symm (R : Fin 3 → Fin 3 → EReal) (sx sy sz : EReal) (i k : Fin 3) :
    covOf R sx sy sz i k = covOf R sx sy sz k i := by
  unfold covOf
  rw [mul_comm (R i 0 * sx) (R k 0 * sx), mul_comm (R i 1 * sy) (R k 1 * sy), mul_comm (R i 2 * sz) (R k 2 * sz)]

/-- The stored row read at position 3 i + k is entry (i, k) of the product: the upper triangle as stored, the lower by symmetry. -/
theorem Krow_r9 (w x y z sx sy sz : EReal) : ∀ i k : Fin 3,
    Krow w x y z sx sy sz (r9 i k) = covOf (kR w x y z) sx sy sz i k
  | ⟨0, _⟩, ⟨0, _⟩ => rfl
  | ⟨0, _⟩, ⟨1, _⟩ => rfl
  | ⟨0, _⟩, ⟨2, _⟩ => rfl
  | ⟨1, _⟩, ⟨0, _⟩ => covOf_symm (kR w x y z) sx sy sz 0 1
  | ⟨1, _⟩, ⟨1, _⟩ => rfl
  | ⟨1, _⟩, ⟨2, _⟩ => rfl
  | ⟨2, _⟩, ⟨0, _⟩ => covOf_symm (kR w x y z) sx sy sz 0 2
  | ⟨2, _⟩, ⟨1, _⟩ => covOf_symm (kR w x y z) sx sy sz 1 2
  | ⟨2, _⟩, ⟨2, _⟩ => rfl

end Cert.Cov.Alg

namespace Cert.Cov

open Idealize.ShloMosaic Cert.Cov.Alg

/-! ### The two forms agree off the zero quaternion -/

theorem Krow_eq_Rrow (w x y z sx sy sz : ℝ) (hs : 0 < w * w + x * x + y * y + z * z) (i k : Fin 3) :
    Krow (w : EReal) (x : EReal) (y : EReal) (z : EReal) (sx : EReal) (sy : EReal) (sz : EReal) (r9 i k)
      = Rrow (w : EReal) (x : EReal) (y : EReal) (z : EReal) (sx : EReal) (sy : EReal) (sz : EReal) i k := by
  have hR : kR (w : EReal) (x : EReal) (y : EReal) (z : EReal)
      = qR (Ideal.div (w : EReal) (rN (w : EReal) (x : EReal) (y : EReal) (z : EReal)))
           (Ideal.div (x : EReal) (rN (w : EReal) (x : EReal) (y : EReal) (z : EReal)))
           (Ideal.div (y : EReal) (rN (w : EReal) (x : EReal) (y : EReal) (z : EReal)))
           (Ideal.div (z : EReal) (rN (w : EReal) (x : EReal) (y : EReal) (z : EReal))) := by
    funext a b
    rw [div_rN_coe w x y z w hs, div_rN_coe w x y z x hs, div_rN_coe w x y z y hs, div_rN_coe w x y z z hs,
      qR_coe, Rmat_scale, kR_coe w x y z _ (kT_coe w x y z hs)]
  rw [Krow_r9, hR]
  rfl

end Cert.Cov

end
-- ==== Proof.PreFacts.lean ====
/-
  What the hypothesis gives, one row at a time.

  The hypothesis is the conjunction of three statements about the two inputs, each a conjunction over every index:
  |a| < +∞ at every entry of the first input, the same of the second, and 0 < Σ_k a(n, k)² at every row n of the first.
  An extended real whose absolute value max a (-a) is below +∞ is a real (at either infinity that maximum is +∞), so the
  seven entries of row n are reals w, x, y, z and sx, sy, sz.  The sum over the second axis at row n is the initial value 0
  plus the four squares of the row, so the third statement at row n reads 0 < w² + x² + y² + z² among the reals.
-/
import proofs.«160028_j36670430773888_2_alg».proof.Proof.Spec
import proofs.«160028_j36670430773888_2_alg».proof.Pre_finite_inputs
import proofs.«160028_j36670430773888_2_alg».proof.Proof.Gen.Pre_finite_inputs
import Idealize.ShloMosaic.Lib.ReduceAll
import Idealize.ShloMosaic.Lib.IdealHost
import Idealize.ShloMosaic.PureOps.Ideal.Laws
import Idealize.ShloMosaic.Lib.ValueIdx

noncomputable section

namespace Cert.Cov.Pre

open Idealize.ShloMosaic Idealize.ShloMosaic.ValueIdx Cert.Pre_finite_inputs

/-- The scalar shape has one index. -/
theorem subsingleton_scalar : Subsingleton S_.Idx := ⟨fun a b => funext fun d => d.elim0⟩

/-- The pattern of +∞ denotes +∞. -/
theorem ofBits_inf : Ideal.ofBits .f32 0x7F800000#32 = ⊤ := by
  simp [Ideal.ofBits, Ideal.ieee]

/-- An extended real whose absolute value max x (-x) is below +∞ is a real: at either infinity the maximum is +∞. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- The sum over the second axis of an [8000000, 4] array at row n: the initial value plus the four entries of the row. -/
theorem hostSum_row (hr : S8000000x4.ReducesTo [1] S8000000) (y : S8000000x4.Idx → EReal) (init : EReal) (n : Fin 8000000) :
    Ideal.hostReduceAdd hr y init (ix1 n) = init + (y (ix2 n 0) + y (ix2 n 1) + y (ix2 n 2) + y (ix2 n 3)) := by
  have e : Ideal.hostReduceAdd hr y init (ix1 n) = init + ∑ k : Fin 4, y (ix2 n k) := by
    rw [Ideal.hostReduceAdd_single hr (by decide)]
    refine congrArg (_ + ·) (Finset.sum_congr rfl fun k _ => ?_)
    exact congrArg y (funext fun a => Fin.ext (by match a with | ⟨0, _⟩ => rfl | ⟨1, _⟩ => rfl))
  rw [e, Fin.sum_univ_four]

/-- A comparison "greater than" that came out true says the right side is below the left. -/
theorem lt_of_cmp_ogt (a b : EReal) (h : Ideal.cmp .ogt a b = 1#1) : b < a := by
  by_contra hn
  simp [Ideal.cmp, hn] at h

/-- The same at an index of two arrays. -/
theorem lt_of_cmpf_ogt {s : Shape} (u v : FVec Ideal s .f32) (i : s.Idx) (h : cmpf .ogt u v i = 1#1) : v i < u i :=
  lt_of_cmp_ogt (u i) (v i) h

end Cert.Cov.Pre

namespace Cert.Cov

open Idealize.ShloMosaic Idealize.ShloMosaic.ValueIdx Cert.Pre_finite_inputs Cert.Cov.Pre

/-- What the hypothesis gives at row n: the seven entries are reals, and the quaternion's sum of squares is positive. -/
theorem pre_facts (a0 : (⟨2, ![8000000, 4]⟩ : Shape).Idx → EReal) (a1 : (⟨2, ![8000000, 3]⟩ : Shape).Idx → EReal)
    (h : Cert.Pre_finite_inputs.fn (F := Ideal) a0 a1 = fun _ => 1#1) (n : Fin 8000000) :
    ∃ w x y z sx sy sz : ℝ, a0 (ix2 n 0) = (w : EReal) ∧ a0 (ix2 n 1) = (x : EReal) ∧ a0 (ix2 n 2) = (y : EReal)
      ∧ a0 (ix2 n 3) = (z : EReal) ∧ a1 (ix2 n 0) = (sx : EReal) ∧ a1 (ix2 n 1) = (sy : EReal) ∧ a1 (ix2 n 2) = (sz : EReal)
      ∧ 0 < w * w + x * x + y * y + z * z := by
  haveI := subsingleton_scalar
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  have r0 : ∀ i, ∃ r : ℝ, a0 i = (r : EReal) := fun i =>
    real_of_abs_lt (a0 i) (Host.reduce_andi_all _ _ _ _ _ h1 i)
  have r1 : ∀ i, ∃ r : ℝ, a1 i = (r : EReal) := fun i =>
    real_of_abs_lt (a1 i) (Host.reduce_andi_all _ _ _ _ _ h2 i)
  obtain ⟨w, hw⟩ := r0 (ix2 n 0)
  obtain ⟨x, hx⟩ := r0 (ix2 n 1)
  obtain ⟨y, hy⟩ := r0 (ix2 n 2)
  obtain ⟨z, hz⟩ := r0 (ix2 n 3)
  obtain ⟨sx, hsx⟩ := r1 (ix2 n 0)
  obtain ⟨sy, hsy⟩ := r1 (ix2 n 1)
  obtain ⟨sz, hsz⟩ := r1 (ix2 n 2)
  refine ⟨w, x, y, z, sx, sy, sz, hw, hx, hy, hz, hsx, hsy, hsz, ?_⟩
  have h3n := Host.reduce_andi_all _ _ _ _ _ h3 (ix1 n)
  have hlt := lt_of_cmpf_ogt _ _ _ h3n
  rw [broadcastInDim_scalar_apply, hostReduceAdd_apply, hostSum_row] at hlt
  change Ideal.ofBits .f32 0x00000000#32 < Ideal.ofBits .f32 0x00000000#32
    + (a0 (ix2 n 0) * a0 (ix2 n 0) + a0 (ix2 n 1) * a0 (ix2 n 1) + a0 (ix2 n 2) * a0 (ix2 n 2) + a0 (ix2 n 3) * a0 (ix2 n 3)) at hlt
  rw [Ideal.ofBits_zero_f32, zero_add, hw, hx, hy, hz] at hlt
  exact_mod_cast hlt

end Cert.Cov

end
-- ==== Proof.RefValue.lean ====
/-
  The value of the normalise-first program at one index.

  Row n of the first input is a quaternion (w, x, y, z), row n of the second a scale (sx, sy, sz).  The program divides
  the four components by the norm N = sqrt(0 + (w² + x² + y² + z²)), forms the nine entries of the rotation matrix of the
  unit quaternion one vector at a time, places them side by side into three rows and the rows one above the other
  into the matrix R, scales column j of R by the j-th scale, and contracts the scaled matrix with itself over the
  columns.  Read at (n, i, k) this is entry (i, k) of (R S)(R S)^T for row n: `Rrow`.
-/
import proofs.«160028_j36670430773888_2_alg».proof.Proof.Spec
import proofs.«160028_j36670430773888_2_alg».proof.Proof.Gen.ReferenceIdeal.Read

noncomputable section
open Idealize.ShloMosaic Idealize.ShloMosaic.ValueIdx
open Cert.ReferenceIdeal Cert.ReferenceIdeal.Read

namespace Cert.Cov

variable (x0 : (⟨2, ![8000000, 4]⟩ : Shape).Idx → EReal) (x1 : (⟨2, ![8000000, 3]⟩ : Shape).Idx → EReal)

/-- The norm of row n of the first input. -/
abbrev refN (n : Fin 8000000) : EReal := rN (x0 (ix2 n 0)) (x0 (ix2 n 1)) (x0 (ix2 n 2)) (x0 (ix2 n 3))

/-! Index bookkeeping: each layout operation's operand index, at an index built from coordinates. -/

theorem ref_ix_norm_sum (n : Fin 8000000) (c : Fin 1) (k : Fin 4) :
    idx_main_call0_v1 (idx_main_call0_v2 (ix2 n c)) k = ix2 n k :=
  funext fun a => by match a with | ⟨0, _⟩ => rfl | ⟨1, _⟩ => rfl

theorem ref_ix_bcast_norm (n : Fin 8000000) (k : Fin 4) : idx_main_v1 (ix2 n k) = ix2 n (0 : Fin 1) :=
  funext fun a => by match a with | ⟨0, _⟩ => rfl | ⟨1, _⟩ => rfl

theorem ref_norm (n : Fin 8000000) :
    val_main_v0 (F := Ideal) x0 (ix2 n 0) = refN x0 n := by
  rw [val_main_v0_apply, val_main_call0_v2_apply, val_main_call0_v1_apply, Fin.sum_univ_four]
  simp only [val_main_call0_v0_apply, ref_ix_norm_sum]
  rfl

/-- Every component of row n divided by the row's norm. -/
theorem ref_unit (n : Fin 8000000) (k : Fin 4) :
    val_main_v2 (F := Ideal) x0 (ix2 n k) = Ideal.div (x0 (ix2 n k)) (refN x0 n) := by
  rw [val_main_v2_apply, val_main_v1_apply, ref_ix_bcast_norm, ref_norm]
  rfl

theorem ref_ix_col0 (n : Fin 8000000) : idx_main_v3 (idx_main_v4 (ix1 n)) = ix2 n (0 : Fin 4) :=
  funext fun a => by match a with | ⟨0, _⟩ => exact Fin.ext (Nat.div_one _) | ⟨1, _⟩ => rfl
theorem ref_ix_col1 (n : Fin 8000000) : idx_main_v5 (idx_main_v6 (ix1 n)) = ix2 n (1 : Fin 4) :=
  funext fun a => by match a with | ⟨0, _⟩ => exact Fin.ext (Nat.div_one _) | ⟨1, _⟩ => rfl
theorem ref_ix_col2 (n : Fin 8000000) : idx_main_v7 (idx_main_v8 (ix1 n)) = ix2 n (2 : Fin 4) :=
  funext fun a => by match a with | ⟨0, _⟩ => exact Fin.ext (Nat.div_one _) | ⟨1, _⟩ => rfl
theorem ref_ix_col3 (n : Fin 8000000) : idx_main_v9 (idx_main_v10 (ix1 n)) = ix2 n (3 : Fin 4) :=
  funext fun a => by match a with | ⟨0, _⟩ => exact Fin.ext (Nat.div_one _) | ⟨1, _⟩ => rfl

/-- The four components of the unit quaternion of row n. -/
theorem ref_w (n : Fin 8000000) : val_main_v4 (F := Ideal) x0 (ix1 n) = Ideal.div (x0 (ix2 n 0)) (refN x0 n) := by
  rw [val_main_v4_apply, val_main_v3_apply, ref_ix_col0, ref_unit]
theorem ref_x (n : Fin 8000000) : val_main_v6 (F := Ideal) x0 (ix1 n) = Ideal.div (x0 (ix2 n 1)) (refN x0 n) := by
  rw [val_main_v6_apply, val_main_v5_apply, ref_ix_col1, ref_unit]
theorem ref_y (n : Fin 8000000) : val_main_v8 (F := Ideal) x0 (ix1 n) = Ideal.div (x0 (ix2 n 2)) (refN x0 n) := by
  rw [val_main_v8_apply, val_main_v7_apply, ref_ix_col2, ref_unit]
theorem ref_z (n : Fin 8000000) : val_main_v10 (F := Ideal) x0 (ix1 n) = Ideal.div (x0 (ix2 n 3)) (refN x0 n) := by
  rw [val_main_v10_apply, val_main_v9_apply, ref_ix_col3, ref_unit]

/-- The rotation matrix of the unit quaternion of row n. -/
abbrev refRot (n : Fin 8000000) : Fin 3 → Fin 3 → EReal :=
  qR (Ideal.div (x0 (ix2 n 0)) (refN x0 n)) (Ideal.div (x0 (ix2 n 1)) (refN x0 n))
    (Ideal.div (x0 (ix2 n 2)) (refN x0 n)) (Ideal.div (x0 (ix2 n 3)) (refN x0 n))

/-! The nine entries, each an [N]-vector read at n. -/

theorem ref_e00 (n : Fin 8000000) : val_main_v17 (F := Ideal) x0 (ix1 n) = refRot x0 n 0 0 := by
  rw [val_main_v17_apply, val_main_v16_apply, val_main_v15_apply, val_main_v14_apply, val_main_v13_apply, val_main_v11_apply, val_main_v12_apply, ref_y, ref_z]
  rfl

theorem ref_e01 (n : Fin 8000000) : val_main_v22 (F := Ideal) x0 (ix1 n) = refRot x0 n 0 1 := by
  rw [val_main_v22_apply, val_main_v21_apply, val_main_v20_apply, val_main_v18_apply, val_main_v19_apply, ref_w, ref_x, ref_y, ref_z]
  rfl

theorem ref_e02 (n : Fin 8000000) : val_main_v27 (F := Ideal) x0 (ix1 n) = refRot x0 n 0 2 := by
  rw [val_main_v27_apply, val_main_v26_apply, val_main_v25_apply, val_main_v23_apply, val_main_v24_apply, ref_w, ref_x, ref_y, ref_z]
  rfl

theorem ref_e10 (n : Fin 8000000) : val_main_v36 (F := Ideal) x0 (ix1 n) = refRot x0 n 1 0 := by
  rw [val_main_v36_apply, val_main_v35_apply, val_main_v34_apply, val_main_v32_apply, val_main_v33_apply, ref_w, ref_x, ref_y, ref_z]
  rfl

theorem ref_e11 (n : Fin 8000000) : val_main_v43 (F := Ideal) x0 (ix1 n) = refRot x0 n 1 1 := by
  rw [val_main_v43_apply, val_main_v42_apply, val_main_v41_apply, val_main_v40_apply, val_main_v39_apply, val_main_v37_apply, val_main_v38_apply, ref_x, ref_z]
  rfl

theorem ref_e12 (n : Fin 8000000) : val_main_v48 (F := Ideal) x0 (ix1 n) = refRot x0 n 1 2 := by
  rw [val_main_v48_apply, val_main_v47_apply, val_main_v46_apply, val_main_v44_apply, val_main_v45_apply, ref_w, ref_x, ref_y, ref_z]
  rfl

theorem ref_e20 (n : Fin 8000000) : val_main_v57 (F := Ideal) x0 (ix1 n) = refRot x0 n 2 0 := by
  rw [val_main_v57_apply, val_main_v56_apply, val_main_v55_apply, val_main_v53_apply, val_main_v54_apply, ref_w, ref_x, ref_y, ref_z]
  rfl

theorem ref_e21 (n : Fin 8000000) : val_main_v62 (F := Ideal) x0 (ix1 n) = refRot x0 n 2 1 := by
  rw [val_main_v62_apply, val_main_v61_apply, val_main_v60_apply, val_main_v58_apply, val_main_v59_apply, ref_w, ref_x, ref_y, ref_z]
  rfl

theorem ref_e22 (n : Fin 8000000) : val_main_v69 (F := Ideal) x0 (ix1 n) = refRot x0 n 2 2 := by
  rw [val_main_v69_apply, val_main_v68_apply, val_main_v67_apply, val_main_v66_apply, val_main_v65_apply, val_main_v63_apply, val_main_v64_apply, ref_x, ref_y]
  rfl

/-! A concatenation of three unit-extent pieces along axis 1, read at an index: the piece the axis coordinate names. -/

/-- Three [N,1] columns side by side: column j of the [N,3] result is piece j. -/
theorem ref_concat_cols {α : Type} (f0 f1 f2 : S8000000x1.Idx → α)
    (h : Shape.Concatenates ([(⟨S8000000x1, f0⟩ : (s : Shape) × (s.Idx → α)), ⟨S8000000x1, f1⟩, ⟨S8000000x1, f2⟩].map (·.1)) S8000000x3 1)
    (n : Fin 8000000) (j : Fin 3) :
    concatenate S8000000x3 1 [⟨S8000000x1, f0⟩, ⟨S8000000x1, f1⟩, ⟨S8000000x1, f2⟩] h (ix2 n j)
      = (match j with | ⟨0, _⟩ => f0 | ⟨1, _⟩ => f1 | ⟨2, _⟩ => f2) (ix2 n (0 : Fin 1)) := by
  have hi : ∀ (j : Fin 3) (b : Fin S8000000x1.rank), b.cast (rfl : S8000000x1.rank = S8000000x3.rank) ≠ 1 →
      ((ix2 n (0 : Fin 1) : S8000000x1.Idx) b).val = ((ix2 n j : S8000000x3.Idx) (b.cast rfl)).val := fun j b hb => by
    match b with
    | ⟨0, _⟩ => rfl
    | ⟨1, _⟩ => exact absurd rfl hb
  match j with
  | ⟨0, _⟩ => exact concatenate_apply_piece 1 _ h _ 0 (by show 0 < 3; omega) S8000000x1 f0 rfl rfl 0 rfl (ix2 n 0) (hi _) rfl
  | ⟨1, _⟩ => exact concatenate_apply_piece 1 _ h _ 1 (by show 1 < 3; omega) S8000000x1 f1 rfl rfl 1 rfl (ix2 n 0) (hi _) rfl
  | ⟨2, _⟩ => exact concatenate_apply_piece 1 _ h _ 2 (by show 2 < 3; omega) S8000000x1 f2 rfl rfl 2 rfl (ix2 n 0) (hi _) rfl

/-- Three [N,1,3] rows stacked: row i of the [N,3,3] result is piece i. -/
theorem ref_concat_rows {α : Type} (f0 f1 f2 : S8000000x1x3.Idx → α)
    (h : Shape.Concatenates ([(⟨S8000000x1x3, f0⟩ : (s : Shape) × (s.Idx → α)), ⟨S8000000x1x3, f1⟩, ⟨S8000000x1x3, f2⟩].map (·.1)) S8000000x3x3 1)
    (n : Fin 8000000) (i j : Fin 3) :
    concatenate S8000000x3x3 1 [⟨S8000000x1x3, f0⟩, ⟨S8000000x1x3, f1⟩, ⟨S8000000x1x3, f2⟩] h (ix3 n i j)
      = (match i with | ⟨0, _⟩ => f0 | ⟨1, _⟩ => f1 | ⟨2, _⟩ => f2) (ix3 n (0 : Fin 1) j) := by
  have hi : ∀ (i : Fin 3) (b : Fin S8000000x1x3.rank), b.cast (rfl : S8000000x1x3.rank = S8000000x3x3.rank) ≠ 1 →
      ((ix3 n (0 : Fin 1) j : S8000000x1x3.Idx) b).val = ((ix3 n i j : S8000000x3x3.Idx) (b.cast rfl)).val := fun i b hb => by
    match b with
    | ⟨0, _⟩ => rfl
    | ⟨1, _⟩ => exact absurd rfl hb
    | ⟨2, _⟩ => rfl
  match i with
  | ⟨0, _⟩ => exact concatenate_apply_piece 1 _ h _ 0 (by show 0 < 3; omega) S8000000x1x3 f0 rfl rfl 0 rfl (ix3 n 0 j) (hi _) rfl
  | ⟨1, _⟩ => exact concatenate_apply_piece 1 _ h _ 1 (by show 1 < 3; omega) S8000000x1x3 f1 rfl rfl 1 rfl (ix3 n 0 j) (hi _) rfl
  | ⟨2, _⟩ => exact concatenate_apply_piece 1 _ h _ 2 (by show 2 < 3; omega) S8000000x1x3 f2 rfl rfl 2 rfl (ix3 n 0 j) (hi _) rfl

/-! The three rows, each three columns side by side, and the matrix, the three rows stacked. -/

theorem ref_ix_c28 (n : Fin 8000000) : idx_main_v28 (ix2 n (0 : Fin 1)) = ix1 n :=
  funext fun a => by match a with | ⟨0, _⟩ => rfl
theorem ref_ix_c29 (n : Fin 8000000) : idx_main_v29 (ix2 n (0 : Fin 1)) = ix1 n :=
  funext fun a => by match a with | ⟨0, _⟩ => rfl
theorem ref_ix_c30 (n : Fin 8000000) : idx_main_v30 (ix2 n (0 : Fin 1)) = ix1 n :=
  funext fun a => by match a with | ⟨0, _⟩ => rfl
theorem ref_ix_c49 (n : Fin 8000000) : idx_main_v49 (ix2 n (0 : Fin 1)) = ix1 n :=
  funext fun a => by match a with | ⟨0, _⟩ => rfl
theorem ref_ix_c50 (n : Fin 8000000) : idx_main_v50 (ix2 n (0 : Fin 1)) = ix1 n :=
  funext fun a => by match a with | ⟨0, _⟩ => rfl
theorem ref_ix_c51 (n : Fin 8000000) : idx_main_v51 (ix2 n (0 : Fin 1)) = ix1 n :=
  funext fun a => by match a with | ⟨0, _⟩ => rfl
theorem ref_ix_c70 (n : Fin 8000000) : idx_main_v70 (ix2 n (0 : Fin 1)) = ix1 n :=
  funext fun a => by match a with | ⟨0, _⟩ => rfl
theorem ref_ix_c71 (n : Fin 8000000) : idx_main_v71 (ix2 n (0 : Fin 1)) = ix1 n :=
  funext fun a => by match a with | ⟨0, _⟩ => rfl
theorem ref_ix_c72 (n : Fin 8000000) : idx_main_v72 (ix2 n (0 : Fin 1)) = ix1 n :=
  funext fun a => by match a with | ⟨0, _⟩ => rfl
theorem ref_ix_r74 (n : Fin 8000000) (j : Fin 3) : idx_main_v74 (ix3 n (0 : Fin 1) j) = ix2 n j :=
  funext fun a => by match a with | ⟨0, _⟩ => rfl | ⟨1, _⟩ => rfl
theorem ref_ix_r75 (n : Fin 8000000) (j : Fin 3) : idx_main_v75 (ix3 n (0 : Fin 1) j) = ix2 n j :=
  funext fun a => by match a with | ⟨0, _⟩ => rfl | ⟨1, _⟩ => rfl
theorem ref_ix_r76 (n : Fin 8000000) (j : Fin 3) : idx_main_v76 (ix3 n (0 : Fin 1) j) = ix2 n j :=
  funext fun a => by match a with | ⟨0, _⟩ => rfl | ⟨1, _⟩ => rfl

theorem ref_row0 (n : Fin 8000000) (j : Fin 3) : val_main_v31 (F := Ideal) x0 (ix2 n j) = refRot x0 n 0 j := by
  unfold val_main_v31
  rw [ref_concat_cols]
  match j with
  | ⟨0, _⟩ => show val_main_v28 (F := Ideal) x0 (ix2 n 0) = _; rw [val_main_v28_apply, ref_ix_c28, ref_e00]; rfl
  | ⟨1, _⟩ => show val_main_v29 (F := Ideal) x0 (ix2 n 0) = _; rw [val_main_v29_apply, ref_ix_c29, ref_e01]; rfl
  | ⟨2, _⟩ => show val_main_v30 (F := Ideal) x0 (ix2 n 0) = _; rw [val_main_v30_apply, ref_ix_c30, ref_e02]; rfl

theorem ref_row1 (n : Fin 8000000) (j : Fin 3) : val_main_v52 (F := Ideal) x0 (ix2 n j) = refRot x0 n 1 j := by
  unfold val_main_v52
  rw [ref_concat_cols]
  match j with
  | ⟨0, _⟩ => show val_main_v49 (F := Ideal) x0 (ix2 n 0) = _; rw [val_main_v49_apply, ref_ix_c49, ref_e10]; rfl
  | ⟨1, _⟩ => show val_main_v50 (F := Ideal) x0 (ix2 n 0) = _; rw [val_main_v50_apply, ref_ix_c50, ref_e11]; rfl
  | ⟨2, _⟩ => show val_main_v51 (F := Ideal) x0 (ix2 n 0) = _; rw [val_main_v51_apply, ref_ix_c51, ref_e12]; rfl

theorem ref_row2 (n : Fin 8000000) (j : Fin 3) : val_main_v73 (F := Ideal) x0 (ix2 n j) = refRot x0 n 2 j := by
  unfold val_main_v73
  rw [ref_concat_cols]
  match j with
  | ⟨0, _⟩ => show val_main_v70 (F := Ideal) x0 (ix2 n 0) = _; rw [val_main_v70_apply, ref_ix_c70, ref_e20]; rfl
  | ⟨1, _⟩ => show val_main_v71 (F := Ideal) x0 (ix2 n 0) = _; rw [val_main_v71_apply, ref_ix_c71, ref_e21]; rfl
  | ⟨2, _⟩ => show val_main_v72 (F := Ideal) x0 (ix2 n 0) = _; rw [val_main_v72_apply, ref_ix_c72, ref_e22]; rfl

/-- The stacked matrix at (n, i, j) is entry (i, j) of the rotation matrix of row n's unit quaternion. -/
theorem ref_mat (n : Fin 8000000) (i j : Fin 3) : val_main_v77 (F := Ideal) x0 (ix3 n i j) = refRot x0 n i j := by
  unfold val_main_v77
  rw [ref_concat_rows]
  match i with
  | ⟨0, _⟩ => show val_main_v74 (F := Ideal) x0 (ix3 n 0 j) = _; rw [val_main_v74_apply, ref_ix_r74, ref_row0]; rfl
  | ⟨1, _⟩ => show val_main_v75 (F := Ideal) x0 (ix3 n 0 j) = _; rw [val_main_v75_apply, ref_ix_r75, ref_row1]; rfl
  | ⟨2, _⟩ => show val_main_v76 (F := Ideal) x0 (ix3 n 0 j) = _; rw [val_main_v76_apply, ref_ix_r76, ref_row2]; rfl

theorem ref_ix_scale (n : Fin 8000000) (i j : Fin 3) : idx_main_v78 (idx_main_v79 (ix3 n i j)) = ix2 n j :=
  funext fun a => by match a with | ⟨0, _⟩ => rfl | ⟨1, _⟩ => rfl

/-- The matrix with column j scaled by the j-th scale of row n. -/
theorem ref_M (n : Fin 8000000) (i j : Fin 3) :
    val_main_v80 (F := Ideal) x0 x1 (ix3 n i j) = refRot x0 n i j * x1 (ix2 n j) := by
  rw [val_main_v80_apply, ref_mat, val_main_v79_apply, val_main_v78_apply, ref_ix_scale]
  rfl

theorem ref_ix_lhs (n : Fin 8000000) (i k c : Fin 3) : lidx_main_v81 (ix3 n i k) c = ix3 n i c :=
  funext fun a => by match a with | ⟨0, _⟩ => rfl | ⟨1, _⟩ => rfl | ⟨2, _⟩ => rfl
theorem ref_ix_rhs (n : Fin 8000000) (i k c : Fin 3) : ridx_main_v81 (ix3 n i k) c = ix3 n k c :=
  funext fun a => by match a with | ⟨0, _⟩ => rfl | ⟨1, _⟩ => rfl | ⟨2, _⟩ => rfl

/-- The normalise-first program's result at (n, i, k): the contraction over the three columns of the scaled matrix with itself. -/
theorem ref_value (x0 : (⟨2, ![8000000, 4]⟩ : Shape).Idx → EReal) (x1 : (⟨2, ![8000000, 3]⟩ : Shape).Idx → EReal)
    (n : Fin 8000000) (i k : Fin 3) :
    Cert.ReferenceIdeal.Read.val_main_v81 (F := Ideal) x0 x1 (ix3 n i k)
      = Rrow (x0 (ix2 n 0)) (x0 (ix2 n 1)) (x0 (ix2 n 2)) (x0 (ix2 n 3)) (x1 (ix2 n 0)) (x1 (ix2 n 1)) (x1 (ix2 n 2)) i k := by
  rw [val_main_v81_apply, Fin.sum_univ_three]
  simp only [ref_ix_lhs, ref_ix_rhs, ref_M]
  rfl

end Cert.Cov
end
-- ==== Proof.KernelPayload.lean ====
/-
  What the kernel body stores, at an index.

  The body loads a [4,64000] block of quaternions (rows w, x, y, z, one quaternion per lane) and a [3,64000] block of
  scales (rows sx, sy, sz), computes lane by lane the entries of (R S)(R S)^T from the raw quaternion — with
  s = w² + x² + y² + z², every quadratic form scaled by 2/s — and stores them as the nine rows of a [9,64000] block.
  Read at (r, l), that block is entry `r` of the specification's `Krow` at lane `l`'s seven inputs.
-/
import proofs.«160028_j36670430773888_2_alg».proof.Proof.Spec
import proofs.«160028_j36670430773888_2_alg».proof.Proof.Gen.KernelIdeal.Frame
import Idealize.ShloMosaic.Lib.Pipeline.Value

noncomputable section
open Idealize.ShloMosaic Idealize.ShloMosaic.ValueIdx

namespace Cert.Cov
open Cert.KernelIdeal Cert.KernelIdeal.Gen

/-! ## The seven loaded rows

Each input block is cut into its rows: row `c` of the [4,64000] block of quaternions (w, x, y, z) and of the
[3,64000] block of scales (sx, sy, sz), each viewed as a [64000] vector, is the block at (c, l) on lane `l`. -/

theorem pay4_at (x : Vec Ideal S4x64000 .f32) (l : Fin 64000) : k0_pay4 (F := Ideal) x (ix1 l) = x (ix2 0 l) := by
  unfold k0_pay4 k0_pay2
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (0 : Fin 4) l) (fun a => match a with
    | ⟨0, _⟩ => by show (0 : Nat) = 0 + 0; omega
    | ⟨1, _⟩ => by show l.val = 0 + l.val; omega)).trans ?_
  exact congrFun (shapeCast_self _ _) _

theorem pay5_at (x : Vec Ideal S4x64000 .f32) (l : Fin 64000) : k0_pay5 (F := Ideal) x (ix1 l) = x (ix2 1 l) := by
  unfold k0_pay5 k0_pay2
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (1 : Fin 4) l) (fun a => match a with
    | ⟨0, _⟩ => by show (1 : Nat) = 1 + 0; omega
    | ⟨1, _⟩ => by show l.val = 0 + l.val; omega)).trans ?_
  exact congrFun (shapeCast_self _ _) _

theorem pay6_at (x : Vec Ideal S4x64000 .f32) (l : Fin 64000) : k0_pay6 (F := Ideal) x (ix1 l) = x (ix2 2 l) := by
  unfold k0_pay6 k0_pay2
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (2 : Fin 4) l) (fun a => match a with
    | ⟨0, _⟩ => by show (2 : Nat) = 2 + 0; omega
    | ⟨1, _⟩ => by show l.val = 0 + l.val; omega)).trans ?_
  exact congrFun (shapeCast_self _ _) _

theorem pay7_at (x : Vec Ideal S4x64000 .f32) (l : Fin 64000) : k0_pay7 (F := Ideal) x (ix1 l) = x (ix2 3 l) := by
  unfold k0_pay7 k0_pay2
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (3 : Fin 4) l) (fun a => match a with
    | ⟨0, _⟩ => by show (3 : Nat) = 3 + 0; omega
    | ⟨1, _⟩ => by show l.val = 0 + l.val; omega)).trans ?_
  exact congrFun (shapeCast_self _ _) _

theorem pay8_at (x : Vec Ideal S3x64000 .f32) (l : Fin 64000) : k0_pay8 (F := Ideal) x (ix1 l) = x (ix2 0 l) := by
  unfold k0_pay8 k0_pay3
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (0 : Fin 3) l) (fun a => match a with
    | ⟨0, _⟩ => by show (0 : Nat) = 0 + 0; omega
    | ⟨1, _⟩ => by show l.val = 0 + l.val; omega)).trans ?_
  exact congrFun (shapeCast_self _ _) _

theorem pay9_at (x : Vec Ideal S3x64000 .f32) (l : Fin 64000) : k0_pay9 (F := Ideal) x (ix1 l) = x (ix2 1 l) := by
  unfold k0_pay9 k0_pay3
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (1 : Fin 3) l) (fun a => match a with
    | ⟨0, _⟩ => by show (1 : Nat) = 1 + 0; omega
    | ⟨1, _⟩ => by show l.val = 0 + l.val; omega)).trans ?_
  exact congrFun (shapeCast_self _ _) _

theorem pay10_at (x : Vec Ideal S3x64000 .f32) (l : Fin 64000) : k0_pay10 (F := Ideal) x (ix1 l) = x (ix2 2 l) := by
  unfold k0_pay10 k0_pay3
  refine (shapeCast_apply _ _ (ix1 l) (ix2 (0 : Fin 1) l) (by
    rw [Shape.rowMajor_val_two, Shape.rowMajor_val_one]
    show (0 : Nat) * 64000 + l.val = l.val
    omega)).trans ?_
  refine (extractStridedSlice_apply _ _ _ _ (ix2 (2 : Fin 3) l) (fun a => match a with
    | ⟨0, _⟩ => by show (2 : Nat) = 2 + 0; omega
    | ⟨1, _⟩ => by show l.val = 0 + l.val; omega)).trans ?_
  exact congrFun (shapeCast_self _ _) _

/-! ## The lane arithmetic

Every other value of the body is computed lane by lane: at lane `i` it is the same arithmetic on the operands' values at `i`. -/

/-- 1 / (w² + x² + y² + z²). -/
theorem pay11_at (x : Vec Ideal S4x64000 .f32) (i : S64000.Idx) :
    k0_pay11 (F := Ideal) x i
      = Ideal.div one (k0_pay4 x i * k0_pay4 x i + k0_pay5 x i * k0_pay5 x i + k0_pay6 x i * k0_pay6 x i + k0_pay7 x i * k0_pay7 x i) := rfl

/-- R₀₀ = 1 - (2/s)(y² + z²). -/
theorem pay12_at (x : Vec Ideal S4x64000 .f32) (i : S64000.Idx) :
    k0_pay12 (F := Ideal) x i = one - two * k0_pay11 x i * (k0_pay6 x i * k0_pay6 x i + k0_pay7 x i * k0_pay7 x i) := rfl

/-- R₀₁ = (2/s)(x y - w z). -/
theorem pay13_at (x : Vec Ideal S4x64000 .f32) (i : S64000.Idx) :
    k0_pay13 (F := Ideal) x i = two * k0_pay11 x i * (k0_pay5 x i * k0_pay6 x i - k0_pay4 x i * k0_pay7 x i) := rfl

/-- R₀₂ = (2/s)(x z + w y). -/
theorem pay14_at (x : Vec Ideal S4x64000 .f32) (i : S64000.Idx) :
    k0_pay14 (F := Ideal) x i = two * k0_pay11 x i * (k0_pay5 x i * k0_pay7 x i + k0_pay4 x i * k0_pay6 x i) := rfl

/-- 2/s. -/
theorem pay15_at (x : Vec Ideal S4x64000 .f32) (i : S64000.Idx) : k0_pay15 (F := Ideal) x i = two * k0_pay11 x i := rfl

/-- R₀₀ sx. -/
theorem pay16_at (v13 v34 : FVec Ideal S64000 .f32) (i : S64000.Idx) : k0_pay16 (F := Ideal) v13 v34 i = v34 i * v13 i := rfl

/-- R₀₁ sy. -/
theorem pay17_at (v15 v40 : FVec Ideal S64000 .f32) (i : S64000.Idx) : k0_pay17 (F := Ideal) v15 v40 i = v40 i * v15 i := rfl

/-- R₀₂ sz. -/
theorem pay18_at (v17 v46 : FVec Ideal S64000 .f32) (i : S64000.Idx) : k0_pay18 (F := Ideal) v17 v46 i = v46 i * v17 i := rfl

/-- R₁₀ sx, R₁₀ = (2/s)(x y + w z). -/
theorem pay19_at (v5 v7 v9 v11 v13 v48 : FVec Ideal S64000 .f32) (i : S64000.Idx) :
    k0_pay19 (F := Ideal) v5 v7 v9 v11 v13 v48 i = v48 i * (v7 i * v9 i + v5 i * v11 i) * v13 i := rfl

/-- R₁₁ sy, R₁₁ = 1 - (2/s)(x² + z²). -/
theorem pay20_at (v7 v11 v15 v26 : FVec Ideal S64000 .f32) (i : S64000.Idx) :
    k0_pay20 (F := Ideal) v7 v11 v15 v26 i = (one - two * v26 i * (v7 i * v7 i + v11 i * v11 i)) * v15 i := rfl

/-- R₁₂ sz, R₁₂ = (2/s)(y z - w x). -/
theorem pay21_at (v5 v7 v9 v11 v17 v26 : FVec Ideal S64000 .f32) (i : S64000.Idx) :
    k0_pay21 (F := Ideal) v5 v7 v9 v11 v17 v26 i = two * v26 i * (v9 i * v11 i - v5 i * v7 i) * v17 i := rfl

/-- R₂₀ sx, R₂₀ = (2/s)(x z - w y). -/
theorem pay22_at (v5 v7 v9 v11 v13 v26 : FVec Ideal S64000 .f32) (i : S64000.Idx) :
    k0_pay22 (F := Ideal) v5 v7 v9 v11 v13 v26 i = two * v26 i * (v7 i * v11 i - v5 i * v9 i) * v13 i := rfl

/-- R₂₁ sy, R₂₁ = (2/s)(y z + w x). -/
theorem pay23_at (v5 v7 v9 v11 v15 v26 : FVec Ideal S64000 .f32) (i : S64000.Idx) :
    k0_pay23 (F := Ideal) v5 v7 v9 v11 v15 v26 i = two * v26 i * (v9 i * v11 i + v5 i * v7 i) * v15 i := rfl

/-- R₂₂ sz, R₂₂ = 1 - (2/s)(x² + y²). -/
theorem pay24_at (v7 v9 v17 v26 : FVec Ideal S64000 .f32) (i : S64000.Idx) :
    k0_pay24 (F := Ideal) v7 v9 v17 v26 i = (one - two * v26 i * (v7 i * v7 i + v9 i * v9 i)) * v17 i := rfl

/-- Entry (0,0): the squared length of the scaled row 0. -/
theorem pay25_at (v13 v15 v17 v34 v40 v46 : FVec Ideal S64000 .f32) (i : S64000.Idx) :
    k0_pay25 (F := Ideal) v13 v15 v17 v34 v40 v46 i
      = (v34 i * v13 i) * (v34 i * v13 i) + (v40 i * v15 i) * (v40 i * v15 i) + (v46 i * v17 i) * (v46 i * v17 i) := rfl

/-- The first product of entry (0,1). -/
theorem pay26_at (v5 v7 v9 v11 v13 v34 v48 : FVec Ideal S64000 .f32) (i : S64000.Idx) :
    k0_pay26 (F := Ideal) v5 v7 v9 v11 v13 v34 v48 i = (v34 i * v13 i) * (v48 i * (v7 i * v9 i + v5 i * v11 i) * v13 i) := rfl

/-! ## The nine stored rows -/

/-- A [64000] vector stored as a [1,64000] row, read at (0, l). -/
theorem row_at (v : FVec Ideal S64000 .f32) (l : Fin 64000) :
    shapeCast S1x64000 v shapeCasts_S64000_S1x64000 (ix2 (0 : Fin 1) l) = v (ix1 l) :=
  shapeCast_apply _ _ _ (ix1 l) (by
    rw [Shape.rowMajor_val_two, Shape.rowMajor_val_one]
    show l.val = 0 * 64000 + l.val
    omega)

/-- The nine rows from the scaled rotation entries a87 … a95 (R S, row-major), the finished entry (0,0) (a100) and the
    first product of entry (0,1) (a101): rows 3, 6, 7 repeat rows 1, 2, 5 (the matrix is symmetric). -/
def rows (a87 a88 a89 a90 a91 a92 a93 a94 a95 a100 a101 : EReal) : Fin 9 → EReal
  | ⟨0, _⟩ => a100
  | ⟨1, _⟩ => a101 + a88 * a91 + a89 * a92
  | ⟨2, _⟩ => a87 * a93 + a88 * a94 + a89 * a95
  | ⟨3, _⟩ => a101 + a88 * a91 + a89 * a92
  | ⟨4, _⟩ => a90 * a90 + a91 * a91 + a92 * a92
  | ⟨5, _⟩ => a90 * a93 + a91 * a94 + a92 * a95
  | ⟨6, _⟩ => a87 * a93 + a88 * a94 + a89 * a95
  | ⟨7, _⟩ => a90 * a93 + a91 * a94 + a92 * a95
  | ⟨8, _⟩ => a93 * a93 + a94 * a94 + a95 * a95

/-- The stored [9,64000] block at (r, l): the nine [1,64000] rows laid along axis 0, so row `r` at (0, l). -/
theorem pay1_at (v87 v88 v89 v90 v91 v92 v93 v94 v95 v100 v101 : FVec Ideal S64000 .f32) (r : Fin 9) (l : Fin 64000) :
    k0_pay1 (F := Ideal) v87 v88 v89 v90 v91 v92 v93 v94 v95 v100 v101 (ix2 r l) = rows (v87 (ix1 l)) (v88 (ix1 l)) (v89 (ix1 l)) (v90 (ix1 l)) (v91 (ix1 l)) (v92 (ix1 l)) (v93 (ix1 l)) (v94 (ix1 l)) (v95 (ix1 l)) (v100 (ix1 l)) (v101 (ix1 l)) r := by
  unfold k0_pay1
  match r with
  | ⟨0, _⟩ =>
    refine (concatenate_apply_piece 0 _ _ (ix2 (⟨0, by omega⟩ : Fin 9) l) 0 (by show (0 : Nat) < 9; omega) S1x64000 _ rfl rfl 0 rfl
      (ix2 (0 : Fin 1) l) (fun b => match b with | ⟨0, _⟩ => fun h => absurd rfl h | ⟨1, _⟩ => fun _ => rfl) rfl).trans ?_
    exact (row_at _ l).trans rfl
  | ⟨1, _⟩ =>
    refine (concatenate_apply_piece 0 _ _ (ix2 (⟨1, by omega⟩ : Fin 9) l) 1 (by show (1 : Nat) < 9; omega) S1x64000 _ rfl rfl 1 rfl
      (ix2 (0 : Fin 1) l) (fun b => match b with | ⟨0, _⟩ => fun h => absurd rfl h | ⟨1, _⟩ => fun _ => rfl) rfl).trans ?_
    exact (row_at _ l).trans rfl
  | ⟨2, _⟩ =>
    refine (concatenate_apply_piece 0 _ _ (ix2 (⟨2, by omega⟩ : Fin 9) l) 2 (by show (2 : Nat) < 9; omega) S1x64000 _ rfl rfl 2 rfl
      (ix2 (0 : Fin 1) l) (fun b => match b with | ⟨0, _⟩ => fun h => absurd rfl h | ⟨1, _⟩ => fun _ => rfl) rfl).trans ?_
    exact (row_at _ l).trans rfl
  | ⟨3, _⟩ =>
    refine (concatenate_apply_piece 0 _ _ (ix2 (⟨3, by omega⟩ : Fin 9) l) 3 (by show (3 : Nat) < 9; omega) S1x64000 _ rfl rfl 3 rfl
      (ix2 (0 : Fin 1) l) (fun b => match b with | ⟨0, _⟩ => fun h => absurd rfl h | ⟨1, _⟩ => fun _ => rfl) rfl).trans ?_
    exact (row_at _ l).trans rfl
  | ⟨4, _⟩ =>
    refine (concatenate_apply_piece 0 _ _ (ix2 (⟨4, by omega⟩ : Fin 9) l) 4 (by show (4 : Nat) < 9; omega) S1x64000 _ rfl rfl 4 rfl
      (ix2 (0 : Fin 1) l) (fun b => match b with | ⟨0, _⟩ => fun h => absurd rfl h | ⟨1, _⟩ => fun _ => rfl) rfl).trans ?_
    exact (row_at _ l).trans rfl
  | ⟨5, _⟩ =>
    refine (concatenate_apply_piece 0 _ _ (ix2 (⟨5, by omega⟩ : Fin 9) l) 5 (by show (5 : Nat) < 9; omega) S1x64000 _ rfl rfl 5 rfl
      (ix2 (0 : Fin 1) l) (fun b => match b with | ⟨0, _⟩ => fun h => absurd rfl h | ⟨1, _⟩ => fun _ => rfl) rfl).trans ?_
    exact (row_at _ l).trans rfl
  | ⟨6, _⟩ =>
    refine (concatenate_apply_piece 0 _ _ (ix2 (⟨6, by omega⟩ : Fin 9) l) 6 (by show (6 : Nat) < 9; omega) S1x64000 _ rfl rfl 6 rfl
      (ix2 (0 : Fin 1) l) (fun b => match b with | ⟨0, _⟩ => fun h => absurd rfl h | ⟨1, _⟩ => fun _ => rfl) rfl).trans ?_
    exact (row_at _ l).trans rfl
  | ⟨7, _⟩ =>
    refine (concatenate_apply_piece 0 _ _ (ix2 (⟨7, by omega⟩ : Fin 9) l) 7 (by show (7 : Nat) < 9; omega) S1x64000 _ rfl rfl 7 rfl
      (ix2 (0 : Fin 1) l) (fun b => match b with | ⟨0, _⟩ => fun h => absurd rfl h | ⟨1, _⟩ => fun _ => rfl) rfl).trans ?_
    exact (row_at _ l).trans rfl
  | ⟨8, _⟩ =>
    refine (concatenate_apply_piece 0 _ _ (ix2 (⟨8, by omega⟩ : Fin 9) l) 8 (by show (8 : Nat) < 9; omega) S1x64000 _ rfl rfl 8 rfl
      (ix2 (0 : Fin 1) l) (fun b => match b with | ⟨0, _⟩ => fun h => absurd rfl h | ⟨1, _⟩ => fun _ => rfl) rfl).trans ?_
    exact (row_at _ l).trans rfl

/-! ## The block the body stores -/

/-- At (r, l) the body stores entry `r` of (R S)(R S)^T of lane `l`'s quaternion and scale. -/
theorem out_at (x0 : Vec Ideal S4x64000 .f32) (x1 : Vec Ideal S3x64000 .f32) (r : Fin 9) (l : Fin 64000) :
    out0_2 (F := Ideal) x0 x1 (ix2 r l)
      = Krow (x0 (ix2 0 l)) (x0 (ix2 1 l)) (x0 (ix2 2 l)) (x0 (ix2 3 l)) (x1 (ix2 0 l)) (x1 (ix2 1 l)) (x1 (ix2 2 l)) r := by
  have hz : (![0, 0] : Fin 2 → Nat) = fun _ => 0 := funext fun a => by fin_cases a <;> rfl
  unfold out0_2
  rw [View.canon_unit_zero hz]
  simp only [View.ld_unit_zero (S := S4x64000) hz, View.ld_unit_zero (S := S3x64000) hz]
  refine (pay1_at _ _ _ _ _ _ _ _ _ _ _ r l).trans ?_
  simp only [pay16_at, pay17_at, pay18_at, pay19_at, pay20_at, pay21_at, pay22_at, pay23_at, pay24_at, pay25_at, pay26_at,
    pay12_at, pay13_at, pay14_at, pay15_at, pay11_at, pay4_at, pay5_at, pay6_at, pay7_at, pay8_at, pay9_at, pay10_at]
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

end Cert.Cov
end
-- ==== Proof.KernelBlocks.lean ====
/-
  From the region's blocks to its whole output array.

  The region runs over 125 grid points; point t reads columns 64000 t … 64000 t + 63999 of the [4, N] and [3, N] input
  arrays (all rows) and writes the same columns of the [9, N] output array (all nine rows).  What it writes in a column
  depends on that column of the inputs only (`out_at`), so each written block is a block of ONE function `G9` of the two
  input arrays, and the 125 blocks tile the output: the output array ends holding `G9`.
-/
import proofs.«160028_j36670430773888_2_alg».proof.Proof.Spec
import proofs.«160028_j36670430773888_2_alg».proof.Proof.KernelPayload
import proofs.«160028_j36670430773888_2_alg».proof.Proof.Gen.KernelIdeal.Frame
import Idealize.ShloMosaic.Lib.Pipeline.Value

set_option maxRecDepth 16384
noncomputable section
open Idealize.ShloMosaic Idealize.ShloMosaic.ValueIdx Idealize.ShloMosaic.TcCoe Idealize.SL.Sem
open Idealize.ShloMosaic.Pipeline (Dat)
open Cert.KernelIdeal Cert.KernelIdeal.Gen

namespace Cert.Cov

/-- The [9, N] array the region leaves, as ONE function of the two [4, N] and [3, N] arrays it reads: column n holds the nine
    stored entries computed from column n of each. -/
def G9 (A0 : S4x8000000.Idx → EReal) (A1 : S3x8000000.Idx → EReal) : S9x8000000.Idx → EReal := fun i =>
  Krow (A0 (ix2 (0 : Fin 4) (⟨(i 1).val, (i 1).isLt⟩ : Fin 8000000)))
       (A0 (ix2 (1 : Fin 4) (⟨(i 1).val, (i 1).isLt⟩ : Fin 8000000)))
       (A0 (ix2 (2 : Fin 4) (⟨(i 1).val, (i 1).isLt⟩ : Fin 8000000)))
       (A0 (ix2 (3 : Fin 4) (⟨(i 1).val, (i 1).isLt⟩ : Fin 8000000)))
       (A1 (ix2 (0 : Fin 3) (⟨(i 1).val, (i 1).isLt⟩ : Fin 8000000)))
       (A1 (ix2 (1 : Fin 3) (⟨(i 1).val, (i 1).isLt⟩ : Fin 8000000)))
       (A1 (ix2 (2 : Fin 3) (⟨(i 1).val, (i 1).isLt⟩ : Fin 8000000)))
       (⟨(i 0).val, (i 0).isLt⟩ : Fin 9)

variable (m : (ℓ : Loc nD τ sig) → Buf (Elt Ideal) ℓ)

/-- The three windows' index maps over the grid: every block starts at row 0, the two inputs' blocks sit at the output's
    column block, and there are 125 column blocks. -/
theorem idx_facts : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = win0_2.index t (1 : Fin 2)
    ∧ win0_2.index t (0 : Fin 2) = 0 ∧ win0_2.index t (1 : Fin 2) ≤ 124 :=
  (by decide +kernel : ∀ t : Fin grid0.N, _)

/-- Every column block is some grid point's. -/
theorem idx_onto : ∀ q : Fin 125, ∃ t : Fin cfg0.N, win0_2.index t = ![0, q.val] :=
  (by decide +kernel : ∀ q : Fin 125, ∃ t : Fin grid0.N, win0_2.index t = ![0, q.val])

/-- Entry (k, l) of the first input's block at point t is entry (k, 64000 q + l) of its array, q the point's column block. -/
theorem iblk0_at (c : Dev nD) (t : Fin cfg0.N) (k : Fin 4) (l : Fin 64000) (q : Nat) (hq : win0_2.index t (1 : Fin 2) = q) (hb : q * 64000 + l.val < 8000000) :
    iblk m c 0 t (ix2 k l) = V m c main_call0_v0 (ix2 k (⟨q * 64000 + l.val, hb⟩ : Fin 8000000)) := by
  obtain ⟨e00, e01, e10, e11, e20, e21⟩ := idx_facts t
  show V m c main_call0_v0 (((cfg0.win 0).blk t).view.emb (ix2 k l)) = _
  refine congrArg _ (funext fun a => Fin.ext ?_)
  match a with
  | ⟨0, _⟩ => show win0_0.index t (0 : Fin 2) * 4 + 1 * k.val = k.val; omega
  | ⟨1, _⟩ => show win0_0.index t (1 : Fin 2) * 64000 + 1 * l.val = q * 64000 + l.val; omega

theorem iblk1_at (c : Dev nD) (t : Fin cfg0.N) (k : Fin 3) (l : Fin 64000) (q : Nat) (hq : win0_2.index t (1 : Fin 2) = q) (hb : q * 64000 + l.val < 8000000) :
    iblk m c 1 t (ix2 k l) = V m c main_call0_v1 (ix2 k (⟨q * 64000 + l.val, hb⟩ : Fin 8000000)) := by
  obtain ⟨e00, e01, e10, e11, e20, e21⟩ := idx_facts t
  show V m c main_call0_v1 (((cfg0.win 1).blk t).view.emb (ix2 k l)) = _
  refine congrArg _ (funext fun a => Fin.ext ?_)
  match a with
  | ⟨0, _⟩ => show win0_1.index t (0 : Fin 2) * 3 + 1 * k.val = k.val; omega
  | ⟨1, _⟩ => show win0_1.index t (1 : Fin 2) * 64000 + 1 * l.val = q * 64000 + l.val; omega

/-- WHAT POINT t WRITES BACK is block t of `G9` of the two arrays the region reads. -/
theorem flushed_eq (c : Dev nD) (t : Fin cfg0.N) :
    (dats m 0 c).flushed 2 t = ((cfg0.win 2).blk t).view.read (Elt Ideal) (G9 (V m c main_call0_v0) (V m c main_call0_v1)) := by
  show (cfg0.win 2).cut (grid0.coords t) ((dats m 0 c).after 2 t) = _
  rw [after0_2]
  obtain ⟨e00, e01, e10, e11, e20, e21⟩ := idx_facts t
  funext j
  obtain ⟨r, l, rfl⟩ : ∃ (r : Fin 9) (l : Fin 64000), j = ix2 r l :=
    ⟨⟨(j 0).val, (j 0).isLt⟩, ⟨(j 1).val, (j 1).isLt⟩, funext fun a => by match a with | ⟨0, _⟩ => rfl | ⟨1, _⟩ => rfl⟩
  have hb : win0_2.index t (1 : Fin 2) * 64000 + l.val < 8000000 := by have := l.isLt; omega
  show out0_2 (iblk m c 0 t) (iblk m c 1 t) (ix2 r l) = G9 (V m c main_call0_v0) (V m c main_call0_v1) (((cfg0.win 2).blk t).view.emb (ix2 r l))
  have hemb : ((cfg0.win 2).blk t).view.emb (ix2 r l) = ix2 r (⟨win0_2.index t (1 : Fin 2) * 64000 + l.val, hb⟩ : Fin 8000000) := by
    funext a; apply Fin.ext
    match a with
    | ⟨0, _⟩ => show win0_2.index t (0 : Fin 2) * 9 + 1 * r.val = r.val; omega
    | ⟨1, _⟩ => show win0_2.index t (1 : Fin 2) * 64000 + 1 * l.val = win0_2.index t (1 : Fin 2) * 64000 + l.val; omega
  rw [hemb]
  refine (out_at (iblk m c 0 t) (iblk m c 1 t) r l).trans ?_
  rw [iblk0_at m c t 0 l _ rfl hb, iblk0_at m c t 1 l _ rfl hb, iblk0_at m c t 2 l _ rfl hb, iblk0_at m c t 3 l _ rfl hb,
    iblk1_at m c t 0 l _ rfl hb, iblk1_at m c t 1 l _ rfl hb, iblk1_at m c t 2 l _ rfl hb]
  rfl

/-- An index of the [9, N] array is in point t's block iff each coordinate is in the block's range on its axis. -/
theorem mem_blk (t : Fin cfg0.N) (i : S9x8000000.Idx) :
    i ∈ ((cfg0.win 2).blk t).view.set ↔ ∀ a : Fin 2, win0_2.index t a * S9x64000.size a ≤ (i a).val ∧ (i a).val < win0_2.index t a * S9x64000.size a + S9x64000.size a := by
  show i ∈ ((View.whole main_call0_v2).slice (win0_2.rect t)).set ↔ _
  rw [View.set_slice_whole, Rect.mem_set_unit]
  exact Iff.rfl

/-- The 125 column blocks tile the array: column n lies in block n / 64000. -/
theorem cover (i : S9x8000000.Idx) : ∃ t : Fin cfg0.N, (cfg0.win 2).flush t = true ∧ i ∈ ((cfg0.win 2).blk t).view.set := by
  have hi0 : (i 0).val < 9 := (i 0).isLt
  have hi1 : (i 1).val < 8000000 := (i 1).isLt
  obtain ⟨t, ht⟩ := idx_onto ⟨(i 1).val / 64000, by omega⟩
  have q0 : win0_2.index t (0 : Fin 2) = 0 := congrFun ht 0
  have q1 : win0_2.index t (1 : Fin 2) = (i 1).val / 64000 := congrFun ht 1
  refine ⟨t, flush0_2 t, ?_⟩
  rw [mem_blk]
  intro a
  match a with
  | ⟨0, _⟩ => show win0_2.index t (0 : Fin 2) * 9 ≤ (i 0).val ∧ (i 0).val < win0_2.index t (0 : Fin 2) * 9 + 9; omega
  | ⟨1, _⟩ => show win0_2.index t (1 : Fin 2) * 64000 ≤ (i 1).val ∧ (i 1).val < win0_2.index t (1 : Fin 2) * 64000 + 64000; omega

/-- So the region's result array ends holding `G9` of the two arrays it reads. -/
theorem final (c : Dev nD) : (dats m 0 c).arrAt 2 cfg0.N = G9 (V m c main_call0_v0) (V m c main_call0_v1) :=
  (dats m 0 c).arrAt_eq_of_cover 2 (G9 (V m c main_call0_v0) (V m c main_call0_v1)) (fun t _ => flushed_eq m c t) cover

end Cert.Cov
end
-- ==== Proof.KernelHost.lean ====
/-
  The layout operations around the region, read back.

  Before the region the program transposes its two arguments, [N, 4] to [4, N] and [N, 3] to [3, N], so that the long axis
  lies along the lanes; these are the two arrays the region's input windows read.  After the region it transposes the
  [9, N] result to [N, 9] and reshapes it to [N, 3, 3].  Here: what the two input arrays hold when the region is entered,
  and the program's result buffer as those two layout operations of whatever the region's output array ends holding.
-/
import proofs.«160028_j36670430773888_2_alg».proof.Proof.Gen.KernelIdeal.Frame
import Idealize.ShloMosaic.Lib.Pipeline.Value
import Idealize.ShloMosaic.Lib.ValueIdx
import Idealize.ShloMosaic.Lib.StableHlo.Run

set_option maxRecDepth 16384
noncomputable section
open Idealize.ShloMosaic Idealize.ShloMosaic.ValueIdx Idealize.ShloMosaic.TcCoe Idealize.SL.Sem
open Idealize.ShloMosaic.Pipeline (Dat)
open Cert.KernelIdeal Cert.KernelIdeal.Gen

namespace Cert.Cov

variable (m : (ℓ : Loc nD τ sig) → Buf (Elt Ideal) ℓ)

/-- When the region is entered, its first input array is the transposed quaternion argument. -/
theorem V_q (c : Dev nD) : (V m c main_call0_v0 : S4x8000000.Idx → EReal)
    = transpose S4x8000000 [1, 0] (m ((c : Thread nD τ).loc main_arg0) : S8000000x4.Idx → EReal) transposes_S8000000x4_S4x8000000_1_0 := by
  show StableHlo.after hostOps0 (fun b => m (c, b)) (Proc.devRef .tc main_call0_v0) = _
  after_results
  rfl

/-- And its second input array the transposed scale argument. -/
theorem V_s (c : Dev nD) : (V m c main_call0_v1 : S3x8000000.Idx → EReal)
    = transpose S3x8000000 [1, 0] (m ((c : Thread nD τ).loc main_arg1) : S8000000x3.Idx → EReal) transposes_S8000000x3_S3x8000000_1_0 := by
  show StableHlo.after hostOps0 (fun b => m (c, b)) (Proc.devRef .tc main_call0_v1) = _
  after_results
  rfl

/-- The result buffer after the two operations that follow the region: the region's output array, transposed and reshaped. -/
theorem tail_eq (c : Dev nD) : (Pipeline.afterTail₀ cfgs (dats m) 0 (V0 m) [hostOps1] c main_v0 : S8000000x3x3.Idx → EReal)
    = shapeCast S8000000x3x3 (transpose S8000000x9 [1, 0] ((dats m 0 c).arrAt 2 cfg0.N : S9x8000000.Idx → EReal) transposes_S9x8000000_S8000000x9_1_0) shapeCasts_S8000000x9_S8000000x3x3 := by
  unfold Pipeline.afterTail₀
  show StableHlo.after hostOps1 _ (Proc.devRef .tc main_v0) = _
  after_results
  have e : (Pipeline.withArrays spec0 c (V0 m c) (fun w => (dats m 0 c).arrAt w cfg0.N) (Proc.devRef .tc main_call0_v2) : S9x8000000.Idx → EReal)
      = ((dats m 0 c).arrAt 2 cfg0.N : S9x8000000.Idx → EReal) :=
    Pipeline.withArrays_arr spec0 launch0.win.arr_inj c (V0 m c) (fun w => (dats m 0 c).arrAt w cfg0.N) 2
  exact congrArg (fun A : S9x8000000.Idx → EReal => shapeCast S8000000x3x3 (transpose S8000000x9 [1, 0] A transposes_S9x8000000_S8000000x9_1_0) shapeCasts_S8000000x9_S8000000x3x3) e

end Cert.Cov
end
-- ==== Proof.KernelRun.lean ====
/-
  The idealized kernel program's run, with its result named.

  The region's output array holds `G9` of the transposed arguments (KernelBlocks); the program's result is that array
  transposed and reshaped (KernelHost).  Entry (n, i, k) of the [N, 3, 3] result is entry (n, 3 i + k) of the [N, 9]
  transpose, that is entry (3 i + k, n) of the [9, N] array: the (3 i + k)-th stored entry computed from row n of the two
  arguments.  That is `Kres`.
-/
import proofs.«160028_j36670430773888_2_alg».proof.Proof.Spec
import proofs.«160028_j36670430773888_2_alg».proof.Proof.KernelBlocks
import proofs.«160028_j36670430773888_2_alg».proof.Proof.KernelHost

set_option maxRecDepth 16384
noncomputable section
open Idealize.ShloMosaic Idealize.ShloMosaic.ValueIdx Idealize.ShloMosaic.TcCoe Idealize.SL.Sem
open Idealize.ShloMosaic.Pipeline (Dat)
open Cert.KernelIdeal Cert.KernelIdeal.Gen

namespace Cert.Cov

variable (m : (ℓ : Loc nD τ sig) → Buf (Elt Ideal) ℓ)

/-- Reading the [N, 3, 3] result of the two layout operations after the region at (n, i, k): the [9, N] array at (3 i + k, n). -/
theorem relaid_at (A : S9x8000000.Idx → EReal) (n : Fin 8000000) (i k : Fin 3) :
    shapeCast S8000000x3x3 (transpose S8000000x9 [1, 0] A transposes_S9x8000000_S8000000x9_1_0) shapeCasts_S8000000x9_S8000000x3x3 (ix3 n i k)
      = A (ix2 (r9 i k) n) := by
  refine (shapeCast_apply _ shapeCasts_S8000000x9_S8000000x3x3 (ix3 n i k) (ix2 n (r9 i k)) ?_).trans ?_
  · rw [Shape.rowMajor_val_two, Shape.rowMajor_val_three]
    show n.val * 9 + (3 * i.val + k.val) = (n.val * 3 + i.val) * 3 + k.val
    omega
  · exact transpose_apply [1, 0] A transposes_S9x8000000_S8000000x9_1_0 (ix2 n (r9 i k)) (ix2 (r9 i k) n)
      (fun b => by match b with | ⟨0, _⟩ => rfl | ⟨1, _⟩ => rfl)

/-- The transposed inputs at (k, n) are the inputs at (n, k). -/
theorem q_at (a0 : S8000000x4.Idx → EReal) (k : Fin 4) (n : Fin 8000000) :
    transpose S4x8000000 [1, 0] a0 transposes_S8000000x4_S4x8000000_1_0 (ix2 k n) = a0 (ix2 n k) :=
  transpose_apply [1, 0] a0 transposes_S8000000x4_S4x8000000_1_0 (ix2 k n) (ix2 n k)
    (fun b => by match b with | ⟨0, _⟩ => rfl | ⟨1, _⟩ => rfl)
theorem s_at (a1 : S8000000x3.Idx → EReal) (k : Fin 3) (n : Fin 8000000) :
    transpose S3x8000000 [1, 0] a1 transposes_S8000000x3_S3x8000000_1_0 (ix2 k n) = a1 (ix2 n k) :=
  transpose_apply [1, 0] a1 transposes_S8000000x3_S3x8000000_1_0 (ix2 k n) (ix2 n k)
    (fun b => by match b with | ⟨0, _⟩ => rfl | ⟨1, _⟩ => rfl)

/-- The program's result buffer after the run: `Kres` of the two argument arrays. -/
theorem result_eq (c : Dev nD) :
    (Pipeline.afterTail₀ cfgs (dats m) 0 (V0 m) [hostOps1] c main_v0 : S8000000x3x3.Idx → EReal)
      = Kres (m ((c : Thread nD τ).loc main_arg0)) (m ((c : Thread nD τ).loc main_arg1)) := by
  rw [tail_eq, final, V_q, V_s]
  funext j
  obtain ⟨n, i, k, rfl⟩ : ∃ (n : Fin 8000000) (i k : Fin 3), j = ix3 n i k := ⟨j 0, j 1, j 2, eq_ix3 j⟩
  rw [relaid_at]
  show Krow _ _ _ _ _ _ _ (r9 i k) = Krow _ _ _ _ _ _ _ (r9 i k)
  rw [q_at, q_at, q_at, q_at, s_at, s_at, s_at]

/-- Every weakly fair execution of the program ends with the result at `Kres` of the arguments and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0) = Kres (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Cov
end
-- ==== Proof.lean ====
/-
  The certificate: a batched 3x3 covariance (R S)(R S)^T from quaternions and scales, computed by a kernel that never
  normalises the quaternion (it divides the quadratic forms by w² + x² + y² + z²) against a reference that divides the
  quaternion by its norm first.

  The mathematics is in Proof/Spec.lean (the two spellings of one result row) and Proof/Algebra.lean (they agree for a
  real quaternion with w² + x² + y² + z² > 0).  At the zero quaternion they differ — the reference forms 0/0 there — so
  the precondition asks, besides finite inputs, that every quaternion have a positive sum of squares; Proof/PreFacts.lean
  reads that off the printed precondition row by row.  Proof/KernelPayload.lean, KernelBlocks.lean, KernelHost.lean and
  KernelRun.lean read the idealized kernel program's run (its frame, with the result named: the stored entries of each row,
  through the transposes around the region); Proof/RefValue.lean reads the idealized reference's run index by index.

  The three frames are the programs' runs with the result forgotten; nothing was rewritten by the ideal pass, so the
  idealization claim is trivial; and the algebraic claim pairs the two runs at the one function `Cov.Kres` of the arguments.
-/
import proofs.«160028_j36670430773888_2_alg».proof.Defs
import proofs.«160028_j36670430773888_2_alg».proof.Proof.Gen.Kernel
import proofs.«160028_j36670430773888_2_alg».proof.Proof.Gen.Kernel.Skeleton
import proofs.«160028_j36670430773888_2_alg».proof.Proof.Gen.Kernel.Launch
import proofs.«160028_j36670430773888_2_alg».proof.Proof.Gen.Kernel.Points
import proofs.«160028_j36670430773888_2_alg».proof.Proof.Gen.Kernel.Frame
import proofs.«160028_j36670430773888_2_alg».proof.Proof.Gen.KernelIdeal
import proofs.«160028_j36670430773888_2_alg».proof.Proof.Gen.KernelIdeal.Skeleton
import proofs.«160028_j36670430773888_2_alg».proof.Proof.Gen.KernelIdeal.Launch
import proofs.«160028_j36670430773888_2_alg».proof.Proof.Gen.KernelIdeal.Points
import proofs.«160028_j36670430773888_2_alg».proof.Proof.Gen.KernelIdeal.Frame
import proofs.«160028_j36670430773888_2_alg».proof.Proof.Gen.ReferenceIdeal
import proofs.«160028_j36670430773888_2_alg».proof.Proof.Gen.Pre_finite_inputs
import proofs.«160028_j36670430773888_2_alg».proof.Proof.Gen.ReferenceIdeal.Run
import proofs.«160028_j36670430773888_2_alg».proof.Proof.Gen.ReferenceIdeal.Read
import proofs.«160028_j36670430773888_2_alg».proof.Proof.Spec
import proofs.«160028_j36670430773888_2_alg».proof.Proof.Algebra
import proofs.«160028_j36670430773888_2_alg».proof.Proof.PreFacts
import proofs.«160028_j36670430773888_2_alg».proof.Proof.RefValue
import proofs.«160028_j36670430773888_2_alg».proof.Proof.KernelRun
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- And the idealized reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree, finite and with no zero quaternion, both idealized programs end with the same [N, 3, 3]
    array: row n of the kernel's is the stored form of (R S)(R S)^T from the raw quaternion of row n, row n of the
    reference's the same matrix from the normalised quaternion, and the two agree entry by entry because the row's
    components are real with a positive sum of squares. -/
theorem algebraic : Cert.algebraic_KernelIdeal_ReferenceIdeal := by
  intro m ρ m' ρ' hpre hagree
  refine ⟨fun c => Cert.Cov.Kres (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Cov.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2]
  funext j
  obtain ⟨n, i, k, rfl⟩ : ∃ (n : Fin 8000000) (i k : Fin 3), j = ix3 n i k := ⟨j 0, j 1, j 2, eq_ix3 j⟩
  rw [Cert.Cov.ref_value]
  obtain ⟨w, x, y, z, sx, sy, sz, h0, h1, h2, h3, h4, h5, h6, hs⟩ := Cert.Cov.pre_facts _ _ (hpre c) n
  show Cert.Cov.Rrow _ _ _ _ _ _ _ i k = Cert.Cov.Krow _ _ _ _ _ _ _ (Cert.Cov.r9 i k)
  rw [h0, h1, h2, h3, h4, h5, h6]
  exact (Cert.Cov.Krow_eq_Rrow w x y z sx sy sz hs i k).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
